-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S32x1 .f32) (main_arg10 : FVec F S1 .f32) (main_v33 : IVec S_ 1) : IVec S_ 1 :=
  let main_v34 : FVec F S32x1 .f32 := Host.absf main_arg9
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x32 .f32) (main_arg8 : FVec F S32 .f32) (main_arg9 : FVec F S32x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x32 .f32) (main_arg8 : FVec F S32 .f32) (main_arg9 : FVec F S32x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S3200000x64 : Shape := ⟨2, ![3200000, 64]⟩
abbrev S1x64 : Shape := ⟨2, ![1, 64]⟩
abbrev S10000x1 : Shape := ⟨2, ![10000, 1]⟩
abbrev S2048x64 : Shape := ⟨2, ![2048, 64]⟩
abbrev S2048 : Shape := ⟨1, ![2048]⟩
abbrev S2048x1 : Shape := ⟨2, ![2048, 1]⟩
abbrev S1x32 : Shape := ⟨2, ![1, 32]⟩
abbrev S1x1 : Shape := ⟨2, ![1, 1]⟩
abbrev S2048x32 : Shape := ⟨2, ![2048, 32]⟩

abbrev nBuf : Space → Nat
  | .hbm => 104
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000, .f32⟩
  | .hbm, ⟨43, _⟩ => ⟨S3200000, .f32⟩
  | .hbm, ⟨44, _⟩ => ⟨S100000, .f32⟩
  | .hbm, ⟨45, _⟩ => ⟨S100000x1, .f32⟩
  | .hbm, ⟨46, _⟩ => ⟨S100000x64, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x64, .f32⟩
  | .hbm, ⟨56, _⟩ => ⟨S3200000x1, .f32⟩
  | .hbm, ⟨57, _⟩ => ⟨S3200000x64, .f32⟩
  | .hbm, ⟨58, _⟩ => ⟨S3200000x64, .f32⟩
  | .hbm, ⟨59, _⟩ => ⟨S_, .f32⟩
  | .hbm, ⟨60, _⟩ => ⟨S100000x64, .f32⟩
  | .hbm, ⟨61, _⟩ => ⟨S3200000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S3200000, .i32⟩
  | .hbm, ⟨68, _⟩ => ⟨S3200000, .i1⟩
  | .hbm, ⟨69, _⟩ => ⟨S_, .i32⟩
  | .hbm, ⟨70, _⟩ => ⟨S3200000, .i32⟩
  | .hbm, ⟨71, _⟩ => ⟨S3200000, .i32⟩
  | .hbm, ⟨72, _⟩ => ⟨S3200000, .i32⟩
  | .hbm, ⟨73, _⟩ => ⟨S3200000x1, .i32⟩
  | .hbm, ⟨74, _⟩ => ⟨S3200000x64, .f32⟩
  | .hbm, ⟨75, _⟩ => ⟨S3200000x1, .f32⟩
  | .hbm, ⟨76, _⟩ => ⟨S3200000x64, .f32⟩
  | .hbm, ⟨77, _⟩ => ⟨S3200000x64, .f32⟩
  | .hbm, ⟨78, _⟩ => ⟨S_, .f32⟩
  | .hbm, ⟨79, _⟩ => ⟨S100000x64, .f32⟩
  | .hbm, ⟨80, _⟩ => ⟨S3200000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S_, .f32⟩
  | .hbm, ⟨85, _⟩ => ⟨S2048x64, .f32⟩
  | .hbm, ⟨86, _⟩ => ⟨S100000x1, .i32⟩
  | .hbm, ⟨87, _⟩ => ⟨S2048x64, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S2048, .f32⟩
  | .hbm, ⟨92, _⟩ => ⟨S100000x1, .i32⟩
  | .hbm, ⟨93, _⟩ => ⟨S2048, .f32⟩
  | .hbm, ⟨94, _⟩ => ⟨S_, .f32⟩
  | .hbm, ⟨95, _⟩ => ⟨S2048, .f32⟩
  | .hbm, ⟨96, _⟩ => ⟨S2048, .f32⟩
  | .hbm, ⟨97, _⟩ => ⟨S2048x1, .f32⟩
  | .hbm, ⟨98, _⟩ => ⟨S2048x64, .f32⟩
  | .hbm, ⟨99, _⟩ => ⟨S2048x64, .f32⟩
  | .hbm, ⟨100, _⟩ => ⟨S1x32, .f32⟩
  | .hbm, ⟨101, _⟩ => ⟨S1x1, .f32⟩
  | .hbm, ⟨102, _⟩ => ⟨S2048x1, .f32⟩
  | .hbm, ⟨103, _⟩ => ⟨S2048, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S2048x64, .f32⟩
  | .local _ .vmem, ⟨29, _⟩ => ⟨S64x32, .f32⟩
  | .local _ .vmem, ⟨30, _⟩ => ⟨S1x32, .f32⟩
  | .local _ .vmem, ⟨31, _⟩ => ⟨S32x1, .f32⟩
  | .local _ .vmem, ⟨32, _⟩ => ⟨S1x1, .f32⟩
  | .local _ .vmem, ⟨33, _⟩ => ⟨S2048x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2048x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2048x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S2048x64 : S_.BroadcastsInDim S2048x64 (![] : Fin 0 → Fin S2048x64.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  shapeCasts_S32_S1x32 : S32.ShapeCasts S1x32
  shapeCasts_S1_S1x1 : S1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048 : S2048x1.ShapeCasts S2048
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  scatter_S2048x64_S100000x1_S100000x64_1_0_0_1_wf : ScatterDims.WF S2048x64 S100000x1 S100000x64 [1] [0] [0] 1
  scatter_S2048_S100000x1_S100000_n_0_0_1_wf : ScatterDims.WF S2048 S100000x1 S100000 [] [0] [0] 1
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S2048x64.size a
  hwx4_0 : ∀ i : grid4.Coords, EltTy.bits .f32 = 32 ∨ (Rect.block (s := S2048x64) S2048x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x1.size a ≤ S32x1.size a
  hwx4_3 : ∀ i : grid4.Coords, EltTy.bits .f32 = 32 ∨ (Rect.block (s := S32x1) S32x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2048x1.size a ≤ S2048x1.size a
  hwx4_5 : ∀ i : grid4.Coords, EltTy.bits .f32 = 32 ∨ (Rect.block (s := S2048x1) S2048x1.size (cc4_transform_5 i) (hinb4_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v71) S2048x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S32x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v74) S2048x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S3200000x64 : Shape := ⟨2, ![3200000, 64]⟩
abbrev S100000x1 : Shape := ⟨2, ![100000, 1]⟩
abbrev S1x64 : Shape := ⟨2, ![1, 64]⟩
abbrev S2048x64 : Shape := ⟨2, ![2048, 64]⟩
abbrev S2048 : Shape := ⟨1, ![2048]⟩
abbrev S2048x1 : Shape := ⟨2, ![2048, 1]⟩
abbrev S2048x32 : Shape := ⟨2, ![2048, 32]⟩
abbrev S1x32 : Shape := ⟨2, ![1, 32]⟩
abbrev S1x1 : Shape := ⟨2, ![1, 1]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S32x1, .f32⟩
  | 10 => ⟨S1, .f32⟩
  | 11 => ⟨S1x3200000, .i32⟩
  | 12 => ⟨S3200000, .i32⟩
  | 13 => ⟨S1x3200000, .i32⟩
  | 14 => ⟨S3200000, .i32⟩
  | 15 => ⟨S_, .f32⟩
  | 16 => ⟨S3200000, .f32⟩
  | 17 => ⟨S_, .f32⟩
  | 18 => ⟨S100000, .f32⟩
  | 19 => ⟨S3200000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S100000x64, .f32⟩
  | 26 => ⟨S_, .i32⟩
  | 27 => ⟨S3200000, .i32⟩
  | 28 => ⟨S3200000, .i1⟩
  | 29 => ⟨S_, .i32⟩
  | 30 => ⟨S3200000, .i32⟩
  | 31 => ⟨S3200000, .i32⟩
  | 32 => ⟨S3200000, .i32⟩
  | 33 => ⟨S3200000x1, .i32⟩
  | 34 => ⟨S3200000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000x64, .f32⟩
  | 54 => ⟨S3200000x1, .f32⟩
  | 55 => ⟨S3200000x64, .f32⟩
  | 56 => ⟨S3200000x64, .f32⟩
  | 57 => ⟨S_, .f32⟩
  | 58 => ⟨S100000x64, .f32⟩
  | 59 => ⟨S3200000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S3200000, .f32⟩
  | 91 => ⟨S3200000, .f32⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000x64, .f32⟩
  | 101 => ⟨S3200000x1, .f32⟩
  | 102 => ⟨S3200000x64, .f32⟩
  | 103 => ⟨S3200000x64, .f32⟩
  | 104 => ⟨S_, .f32⟩
  | 105 => ⟨S100000x64, .f32⟩
  | 106 => ⟨S3200000x1, .i32⟩
  | 107 => ⟨S100000x64, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S_, .f32⟩
  | 120 => ⟨S2048x64, .f32⟩
  | 121 => ⟨S100000x1, .i32⟩
  | 122 => ⟨S2048x64, .f32⟩
  | 123 => ⟨S_, .f32⟩
  | 124 => ⟨S100000, .f32⟩
  | 125 => ⟨S_, .f32⟩
  | 126 => ⟨S2048, .f32⟩
  | 127 => ⟨S100000x1, .i32⟩
  | _ => ⟨S100000x128, .f32⟩

abbrev hbmTy0_1 (i : Nat) : BufTy := match i % 128 with
  | 0 => ⟨S2048, .f32⟩
  | 1 => ⟨S_, .f32⟩
  | 2 => ⟨S2048, .f32⟩
  | 3 => ⟨S2048, .f32⟩
  | 4 => ⟨S2048x1, .f32⟩
  | 5 => ⟨S2048x64, .f32⟩
  | 6 => ⟨S2048x64, .f32⟩
  | 7 => ⟨S2048x32, .f32⟩
  | 8 => ⟨S1x32, .f32⟩
  | 9 => ⟨S2048x32, .f32⟩
  | 10 => ⟨S2048x32, .f32⟩
  | 11 => ⟨S_, .f32⟩
  | 12 => ⟨S2048x32, .f32⟩
  | 13 => ⟨S2048x32, .f32⟩
  | 14 => ⟨S2048x1, .f32⟩
  | 15 => ⟨S1x1, .f32⟩
  | 16 => ⟨S2048x1, .f32⟩
  | 17 => ⟨S2048x1, .f32⟩
  | 18 => ⟨S2048x1, .f32⟩
  | 19 => ⟨S2048x1, .f32⟩
  | 20 => ⟨S_, .f32⟩
  | 21 => ⟨S2048x1, .f32⟩
  | 22 => ⟨S2048x1, .f32⟩
  | 23 => ⟨S_, .f32⟩
  | 24 => ⟨S2048x1, .f32⟩
  | 25 => ⟨S2048x1, .f32⟩
  | 26 => ⟨S2048, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_16 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_call2_cst : Ref sig .tc := ⟨.hbm, 139, rfl⟩
abbrev main_call2_v0 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_19 : Ref sig .tc := ⟨.hbm, 148, rfl⟩
abbrev main_v110 : Ref sig .tc := ⟨.hbm, 149, rfl⟩
abbrev main_v111 : Ref sig .tc := ⟨.hbm, 150, rfl⟩
abbrev main_cst_20 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2048x64 : S_.BroadcastsInDim S2048x64 (![] : Fin 0 → Fin S2048x64.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  bcast_S_S2048x1 : S_.BroadcastsInDim S2048x1 (![] : Fin 0 → Fin S2048x1.rank)
  shapeCasts_S2048x1_S2048 : S2048x1.ShapeCasts S2048
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S2048x64_S100000x1_S100000x64_1_0_0_1_wf : ScatterDims.WF S2048x64 S100000x1 S100000x64 [1] [0] [0] 1
  scatter_S2048_S100000x1_S100000_n_0_0_1_wf : ScatterDims.WF S2048 S100000x1 S100000 [] [0] [0] 1
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.RunAll.lean ====
/-
  The run of the idealized kernel program with EVERY buffer named at the end.

  The program is five kernel regions among stretches of host operations. Between two consecutive
  segments the buffers hold a fold of the launch memory: a host stretch applies its operations, a
  region leaves its arrays at what its write-backs fold to and every other buffer as it was. The
  last such contents is `Gen.W10`. Every weakly fair execution terminates, nothing faults, and each
  unscoped buffer of each core ends holding `Gen.W10` at it: in particular the result buffer, which
  the frame claim does not speak of, and the arguments, which it does.
-/
import proofs.«164985_j79766132621709_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, and each
    unscoped buffer of each core ends at the last fold's contents: the thread state after the last segment
    holds every unscoped buffer at that fold, and it is read against the final state buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The same run, read at the result buffer and the eleven arguments. -/
theorem run_result : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)
    (run_all m ρ)

end Cert.KernelIdeal.Result

end
-- ==== Proof.Proj1.lean ====
/-
  The first projection: node features times the first layer's weights.

  The kernel computes the product ten thousand rows at a time: grid point `t` multiplies rows
  `10000·t … 10000·t + 9999` of the features by the whole weight matrix, into a zero accumulator, and
  writes the block back to the same rows of the result. At the ideal values a block's entry `(p, q)` is
  the sum over `k` of feature `(10000·t + p, k)` times weight `(k, q)`, which is entry
  `(10000·t + p, q)` of the one whole matrix product; the ten blocks tile the hundred thousand rows.
  So after the region the result array holds the whole product, as the host would compute it.
-/
import proofs.«164985_j79766132621709_1_alg».proof.Proof.Gen.KernelIdeal.Frame
import proofs.«164985_j79766132621709_1_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.KernelIdeal.Proj1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The whole product of a 100000×128 array and a 128×64 array, as the host's matrix product. -/
abbrev prod (X : FVec Ideal S100000x128 .f32) (W : FVec Ideal S128x64 .f32) : FVec Ideal S100000x64 .f32 :=
  Host.dotGeneral (F := Ideal) (φ₁ := .f32) (φ₂ := .f32) Cert.ReferenceIdeal.dot_S100000x128_S128x64_S100000x64_1_0_0_1_n_n none X W

/-- Its entry `(r, j)` is the sum over `k` of `X (r, k) · W (k, j)`. -/
theorem prod_apply (X : FVec Ideal S100000x128 .f32) (W : FVec Ideal S128x64 .f32) (r : Fin 100000) (j : Fin 64) :
    prod X W (ix2 r j) = ∑ k : Fin 128, X (ix2 r k) * W (ix2 k j) := by
  refine (Cert.ReferenceIdeal.Read.val_main_v11_apply X W (ix2 r j)).trans ?_
  refine Finset.sum_congr rfl fun k _ => ?_
  have el : Cert.ReferenceIdeal.Read.lidx_main_v11 (ix2 r j) k = ix2 r k :=
    funext fun a => Fin.ext (by match a with | ⟨0, _⟩ => rfl | ⟨1, _⟩ => rfl)
  have er : Cert.ReferenceIdeal.Read.ridx_main_v11 (ix2 r j) k = ix2 k j :=
    funext fun a => Fin.ext (by match a with | ⟨0, _⟩ => rfl | ⟨1, _⟩ => rfl)
  rw [el, er]

/-! ## The block product at an entry -/

abbrev D := dot_S10000x128_S128x64_S10000x64_1_0_0_1_n_n

theorem lhs0 (i : S10000x64.Idx) (q : D.contr.Idx) : (D.lhsIdx i q 0).val = (i 0).val := by
  unfold DotDims.lhsIdx
  rw [dif_neg (show ¬(0 : Fin S10000x128.rank) ∈ D.lhsBatch by decide), dif_pos (show (0 : Fin S10000x128.rank) ∈ D.lhsNonContracting by decide)]
  rfl
theorem lhs1 (i : S10000x64.Idx) (q : D.contr.Idx) : (D.lhsIdx i q 1).val = (q ⟨0, by decide⟩).val :=
  D.lhsIdx_val_of_single rfl i q
theorem rhs0 (i : S10000x64.Idx) (q : D.contr.Idx) : (D.rhsIdx i q 0).val = (q ⟨0, by decide⟩).val :=
  D.rhsIdx_val_of_single rfl i q
theorem rhs1 (i : S10000x64.Idx) (q : D.contr.Idx) : (D.rhsIdx i q 1).val = (i 1).val := by
  unfold DotDims.rhsIdx
  rw [dif_neg (show ¬(1 : Fin S128x64.rank) ∈ D.rhsBatch by decide), dif_pos (show (1 : Fin S128x64.rank) ∈ D.rhsNonContracting by decide)]
  rfl

/-- The body's stored value at entry `(p, q)` of the block: the rounding to bf16 is the identity at the ideal
    values and the accumulator is zero, so it is the sum over `k` of `x0 (p, k) · x1 (k, q)`. -/
theorem pay_apply (x0 : FVec Ideal S10000x128 .f32) (x1 : FVec Ideal S128x64 .f32) (p : Fin 10000) (q : Fin 64) :
    k0_pay1 x0 x1 (ix2 p q) = ∑ k : Fin 128, x0 (ix2 p k) * x1 (ix2 k q) := by
  show matmul (F := Ideal) D none (truncf (F := Ideal) .bf16 x0 bitsLt_bf16_f32) (truncf (F := Ideal) .bf16 x1 bitsLt_bf16_f32) (constant (F := Ideal) S10000x64 .f32 0x00000000#32) (ix2 p q) = _
  refine (Ideal.matmul_constant_zero_apply D none _ _ (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 128 rfl rfl).symm k) = ix2 k q := funext fun a => Fin.ext (by
    match a with
    | ⟨0, _⟩ => exact (rhs0 _ _).trans hk
    | ⟨1, _⟩ => exact rhs1 _ _)
  rw [el, er]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the features' and the result's blocks move down the rows with the point, the
    weights' block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Every block of rows is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- Row `p` of point `t`'s block is row `10000·t + p` of the array. -/
def row (t : Fin cfg0.N) (p : Fin 10000) : Fin 100000 :=
  ⟨t.val * 10000 + p.val, by have h := (idx_facts t).2.2.2.2.2.2; have := p.isLt; omega⟩

/-- What point `t` writes back is block `t` of the whole product of the arrays as the region finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5, e6⟩ := idx_facts t
  funext y
  obtain ⟨p, q, rfl⟩ : ∃ (p : Fin 10000) (q : Fin 64), y = ix2 p q := ⟨y 0, y 1, eq_ix2 y⟩
  show k0_pay1 (iblk0 V c 0 t) (iblk0 V c 1 t) (ix2 p q) = prod (V c main_arg0) (V c main_arg3) (((cfg0.win 2).blk t).view.emb (ix2 p q))
  have hemb : ((cfg0.win 2).blk t).view.emb (ix2 p q) = ix2 (row t p) q := funext fun a => Fin.ext (by
    match a with
    | ⟨0, _⟩ => show win0_2.index t (0 : Fin 2) * 10000 + 1 * p.val = t.val * 10000 + p.val; omega
    | ⟨1, _⟩ => show win0_2.index t (1 : Fin 2) * 64 + 1 * q.val = q.val; omega)
  rw [hemb, prod_apply]
  refine (pay_apply (iblk0 V c 0 t) (iblk0 V c 1 t) p q).trans ?_
  refine Finset.sum_congr rfl fun k _ => ?_
  have h0 : iblk0 V c 0 t (ix2 p k) = V c main_arg0 (ix2 (row t p) k) := by
    show V c main_arg0 (((cfg0.win 0).blk t).view.emb (ix2 p k)) = V c main_arg0 (ix2 (row t p) k)
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : iblk0 V c 1 t (ix2 k q) = V c main_arg3 (ix2 k q) := by
    show V c main_arg3 (((cfg0.win 1).blk t).view.emb (ix2 k q)) = V c main_arg3 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  rw [h0, h1]

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v28).slice (win0_2.rect t)).set ↔ _
  rw [View.set_slice_whole, Rect.mem_set_unit]
  exact Iff.rfl

/-- Row `r` is covered by the point `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the result array is the whole product of the features and the weights as the region found them. -/
theorem final (c : Dev nD) : (dat0 V c).arrAt 2 cfg0.N = prod (V c main_arg0) (V c main_arg3) :=
  (dat0 V c).arrAt_eq_of_cover 2 _ (fun t _ => flushed_eq V c t) cover

end Cert.KernelIdeal.Proj1

end
-- ==== Proof.Proj2.lean ====
/-
  The second projection: the first layer's output times the second layer's weights.

  As in the first projection the kernel works ten thousand rows at a time: grid point `t` multiplies rows
  `10000·t … 10000·t + 9999` of the hidden state by the whole 64×64 weight matrix, into a zero accumulator,
  and writes the block back to the same rows. At the ideal values entry `(p, q)` of the block is the sum
  over `k` of hidden `(10000·t + p, k)` times weight `(k, q)`, entry `(10000·t + p, q)` of the one whole
  matrix product, and the ten blocks tile the rows: after the region the result array is the whole product.
-/
import proofs.«164985_j79766132621709_1_alg».proof.Proof.Gen.KernelIdeal.Frame
import proofs.«164985_j79766132621709_1_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.KernelIdeal.Proj2

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The whole product of a 100000×64 array and a 64×64 array, as the host's matrix product. -/
abbrev prod (X : FVec Ideal S100000x64 .f32) (W : FVec Ideal S64x64 .f32) : FVec Ideal S100000x64 .f32 :=
  Host.dotGeneral (F := Ideal) (φ₁ := .f32) (φ₂ := .f32) Cert.ReferenceIdeal.dot_S100000x64_S64x64_S100000x64_1_0_0_1_n_n none X W

abbrev RD := Cert.ReferenceIdeal.dot_S100000x64_S64x64_S100000x64_1_0_0_1_n_n

/-- Its entry `(r, j)` is the sum over `k` of `X (r, k) · W (k, j)`: the host's product at the ideal values is the plain
    sum over the one contracted axis. -/
theorem prod_apply (X : FVec Ideal S100000x64 .f32) (W : FVec Ideal S64x64 .f32) (r : Fin 100000) (j : Fin 64) :
    prod X W (ix2 r j) = ∑ k : Fin 64, X (ix2 r k) * W (ix2 k j) := by
  show FloatOps.dotGeneral RD none _ X W (ix2 r j) = _
  rw [Ideal.dotGeneral_apply, ← Equiv.sum_comp (contrEquiv1 RD 64 rfl rfl).symm]
  refine Finset.sum_congr rfl fun k _ => ?_
  have hk := contrEquiv1_symm_val RD 64 rfl rfl k
  have el : RD.lhsIdx (ix2 r j) ((contrEquiv1 RD 64 rfl rfl).symm k) = ix2 r k := funext fun a => Fin.ext (by
    match a with
    | ⟨0, _⟩ => exact Cert.ReferenceIdeal.Read.lhs_main_v49_0 _ _
    | ⟨1, _⟩ => exact (Cert.ReferenceIdeal.Read.lhs_main_v49_1 _ _).trans hk)
  have er : RD.rhsIdx (ix2 r j) ((contrEquiv1 RD 64 rfl rfl).symm k) = ix2 k j := funext fun a => Fin.ext (by
    match a with
    | ⟨0, _⟩ => exact (Cert.ReferenceIdeal.Read.rhs_main_v49_0 _ _).trans hk
    | ⟨1, _⟩ => exact Cert.ReferenceIdeal.Read.rhs_main_v49_1 _ _)
  rw [el, er]

/-! ## The block product at an entry -/

abbrev D := dot_S10000x64_S64x64_S10000x64_1_0_0_1_n_n

theorem lhs0 (i : S10000x64.Idx) (q : D.contr.Idx) : (D.lhsIdx i q 0).val = (i 0).val := by
  unfold DotDims.lhsIdx
  rw [dif_neg (show ¬(0 : Fin S10000x64.rank) ∈ D.lhsBatch by decide), dif_pos (show (0 : Fin S10000x64.rank) ∈ D.lhsNonContracting by decide)]
  rfl
theorem lhs1 (i : S10000x64.Idx) (q : D.contr.Idx) : (D.lhsIdx i q 1).val = (q ⟨0, by decide⟩).val :=
  D.lhsIdx_val_of_single rfl i q
theorem rhs0 (i : S10000x64.Idx) (q : D.contr.Idx) : (D.rhsIdx i q 0).val = (q ⟨0, by decide⟩).val :=
  D.rhsIdx_val_of_single rfl i q
theorem rhs1 (i : S10000x64.Idx) (q : D.contr.Idx) : (D.rhsIdx i q 1).val = (i 1).val := by
  unfold DotDims.rhsIdx
  rw [dif_neg (show ¬(1 : Fin S64x64.rank) ∈ D.rhsBatch by decide), dif_pos (show (1 : Fin S64x64.rank) ∈ D.rhsNonContracting by decide)]
  rfl

/-- The body's stored value at entry `(p, q)` of the block: the rounding to bf16 is the identity at the ideal
    values and the accumulator is zero, so it is the sum over `k` of `x0 (p, k) · x1 (k, q)`. -/
theorem pay_apply (x0 : FVec Ideal S10000x64 .f32) (x1 : FVec Ideal S64x64 .f32) (p : Fin 10000) (q : Fin 64) :
    k2_pay1 x0 x1 (ix2 p q) = ∑ k : Fin 64, x0 (ix2 p k) * x1 (ix2 k q) := by
  show matmul (F := Ideal) D none (truncf (F := Ideal) .bf16 (shapeCast S10000x64 x0 shapeCasts_S10000x64_S10000x64) bitsLt_bf16_f32) (truncf (F := Ideal) .bf16 x1 bitsLt_bf16_f32) (constant (F := Ideal) S10000x64 .f32 0x00000000#32) (ix2 p q) = _
  rw [shapeCast_self]
  refine (Ideal.matmul_constant_zero_apply D none _ _ (ix2 p q)).trans ?_
  rw [← Equiv.sum_comp (contrEquiv1 D 64 rfl rfl).symm]
  refine Finset.sum_congr rfl fun k _ => ?_
  have hk := contrEquiv1_symm_val D 64 rfl rfl k
  have el : D.lhsIdx (ix2 p q) ((contrEquiv1 D 64 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 64 rfl rfl).symm k) = ix2 k q := funext fun a => Fin.ext (by
    match a with
    | ⟨0, _⟩ => exact (rhs0 _ _).trans hk
    | ⟨1, _⟩ => exact rhs1 _ _)
  rw [el, er]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the hidden state's and the result's blocks move down the rows with the point, the
    weights' block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- Every block of rows is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- Row `p` of point `t`'s block is row `10000·t + p` of the array. -/
def row (t : Fin cfg2.N) (p : Fin 10000) : Fin 100000 :=
  ⟨t.val * 10000 + p.val, by have h := (idx_facts t).2.2.2.2.2.2; have := p.isLt; omega⟩

/-- What point `t` writes back is block `t` of the whole product of the arrays as the region finds them. -/
theorem flushed_eq (c : Dev nD) (t : Fin cfg2.N) :
    (dat2 V c).flushed 2 t = ((cfg2.win 2).blk t).view.read (Elt Ideal) (prod (V c main_v43) (V c main_arg5)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5, e6⟩ := idx_facts t
  funext y
  obtain ⟨p, q, rfl⟩ : ∃ (p : Fin 10000) (q : Fin 64), y = ix2 p q := ⟨y 0, y 1, eq_ix2 y⟩
  show k2_pay1 (iblk2 V c 0 t) (iblk2 V c 1 t) (ix2 p q) = prod (V c main_v43) (V c main_arg5) (((cfg2.win 2).blk t).view.emb (ix2 p q))
  have hemb : ((cfg2.win 2).blk t).view.emb (ix2 p q) = ix2 (row t p) q := funext fun a => Fin.ext (by
    match a with
    | ⟨0, _⟩ => show win2_2.index t (0 : Fin 2) * 10000 + 1 * p.val = t.val * 10000 + p.val; omega
    | ⟨1, _⟩ => show win2_2.index t (1 : Fin 2) * 64 + 1 * q.val = q.val; omega)
  rw [hemb, prod_apply]
  refine (pay_apply (iblk2 V c 0 t) (iblk2 V c 1 t) p q).trans ?_
  refine Finset.sum_congr rfl fun k _ => ?_
  have h0 : iblk2 V c 0 t (ix2 p k) = V c main_v43 (ix2 (row t p) k) := by
    show V c main_v43 (((cfg2.win 0).blk t).view.emb (ix2 p k)) = V c main_v43 (ix2 (row t p) k)
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * k.val = k.val; omega
  have h1 : iblk2 V c 1 t (ix2 k q) = V c main_arg5 (ix2 k q) := by
    show V c main_arg5 (((cfg2.win 1).blk t).view.emb (ix2 k q)) = V c main_arg5 (ix2 k q)
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = q.val; omega
  rw [h0, h1]

/-- An index of the array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- Row `r` is covered by the point `r / 10000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region the result array is the whole product of the hidden state and the weights as the region found them. -/
theorem final (c : Dev nD) : (dat2 V c).arrAt 2 cfg2.N = prod (V c main_v43) (V c main_arg5) :=
  (dat2 V c).arrAt_eq_of_cover 2 _ (fun t _ => flushed_eq V c t) cover

end Cert.KernelIdeal.Proj2

end
-- ==== Proof.Comb1.lean ====
/-
  The first layer's combination: the aggregated messages plus the self-loop term plus the bias, clamped at zero.

  Grid point `t` takes rows `10000·t … 10000·t + 9999` of the aggregate and of the projected features, the same
  rows of the one-column array of self-loop weights, and the one-row bias, and stores
  `max ((agg + h · s) + b, 0)` entry by entry, the column of weights read along each row and the bias down
  each column. Entry `(p, q)` of the block depends only on row `10000·t + p` and column `q` of the arrays, so it
  is entry `(10000·t + p, q)` of the same expression written once over the whole arrays with the host's
  broadcasts; the ten blocks tile the rows. After the region the result array is that whole-array expression.
-/
import proofs.«164985_j79766132621709_1_alg».proof.Proof.Gen.KernelIdeal.Frame
import proofs.«164985_j79766132621709_1_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.KernelIdeal.Comb1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- `max ((agg + h · s) + b, 0)` over whole arrays: `s` one column broadcast along the rows, `b` one row broadcast
    down the columns, zero a broadcast scalar. -/
abbrev comb (agg h : FVec Ideal S100000x64 .f32) (s : FVec Ideal S100000x1 .f32) (b : FVec Ideal S1x64 .f32) : FVec Ideal S100000x64 .f32 :=
  maximumf (F := Ideal)
    (addf (F := Ideal)
      (addf (F := Ideal) agg (mulf (F := Ideal) h
        (broadcastInDim Cert.ReferenceIdeal.S100000x64 ![0, 1] Cert.ReferenceIdeal.Gen.bcast_S100000x1_S100000x64_0_1 s)))
      (broadcastInDim Cert.ReferenceIdeal.S100000x64 ![0, 1] Cert.ReferenceIdeal.Gen.bcast_S1x64_S100000x64_0_1 b))
    (broadcastInDim Cert.ReferenceIdeal.S100000x64 ![] Cert.ReferenceIdeal.Gen.bcast_S_S100000x64 (constant (F := Ideal) Cert.ReferenceIdeal.S_ .f32 0x00000000#32))

theorem bcol_apply (s : FVec Ideal S100000x1 .f32) (r : Fin 100000) (j : Fin 64) :
    broadcastInDim Cert.ReferenceIdeal.S100000x64 ![0, 1] Cert.ReferenceIdeal.Gen.bcast_S100000x1_S100000x64_0_1 s (ix2 r j) = s (ix2 r 0) :=
  broadcastInDim_apply _ Cert.ReferenceIdeal.Gen.bcast_S100000x1_S100000x64_0_1 s (ix2 r j) (ix2 r 0) (fun a => match a with
    | ⟨0, _⟩ => by show r.val = if (100000 : Nat) = 1 then 0 else r.val; rw [if_neg (by decide)]
    | ⟨1, _⟩ => by show (0 : Nat) = if (1 : Nat) = 1 then 0 else j.val; rw [if_pos rfl])

theorem brow_apply (b : FVec Ideal S1x64 .f32) (r : Fin 100000) (j : Fin 64) :
    broadcastInDim Cert.ReferenceIdeal.S100000x64 ![0, 1] Cert.ReferenceIdeal.Gen.bcast_S1x64_S100000x64_0_1 b (ix2 r j) = b (ix2 0 j) :=
  broadcastInDim_apply _ Cert.ReferenceIdeal.Gen.bcast_S1x64_S100000x64_0_1 b (ix2 r j) (ix2 0 j) (fun a => match a with
    | ⟨0, _⟩ => by show (0 : Nat) = if (1 : Nat) = 1 then 0 else r.val; rw [if_pos rfl]
    | ⟨1, _⟩ => by show j.val = if (64 : Nat) = 1 then 0 else j.val; rw [if_neg (by decide)])

theorem bzero_apply (i : S100000x64.Idx) :
    broadcastInDim Cert.ReferenceIdeal.S100000x64 ![] Cert.ReferenceIdeal.Gen.bcast_S_S100000x64 (constant (F := Ideal) Cert.ReferenceIdeal.S_ .f32 0x00000000#32) i
      = Ideal.ofBits .f32 0x00000000#32 :=
  broadcastInDim_apply _ Cert.ReferenceIdeal.Gen.bcast_S_S100000x64 _ i ix0 (fun a => a.elim0)

/-- The whole-array expression at entry `(r, j)`. -/
theorem comb_apply (agg h : FVec Ideal S100000x64 .f32) (s : FVec Ideal S100000x1 .f32) (b : FVec Ideal S1x64 .f32) (r : Fin 100000) (j : Fin 64) :
    comb agg h s b (ix2 r j) = max ((agg (ix2 r j) + h (ix2 r j) * s (ix2 r 0)) + b (ix2 0 j)) (Ideal.ofBits .f32 0x00000000#32) := by
  show max ((agg (ix2 r j) + h (ix2 r j) * broadcastInDim Cert.ReferenceIdeal.S100000x64 ![0, 1] Cert.ReferenceIdeal.Gen.bcast_S100000x1_S100000x64_0_1 s (ix2 r j))
      + broadcastInDim Cert.ReferenceIdeal.S100000x64 ![0, 1] Cert.ReferenceIdeal.Gen.bcast_S1x64_S100000x64_0_1 b (ix2 r j))
      (broadcastInDim Cert.ReferenceIdeal.S100000x64 ![] Cert.ReferenceIdeal.Gen.bcast_S_S100000x64 (constant (F := Ideal) Cert.ReferenceIdeal.S_ .f32 0x00000000#32) (ix2 r j)) = _
  rw [bcol_apply, brow_apply, bzero_apply]

/-! ## The block's stored value at an entry -/

/-- Entry `(p, q)` of what the body stores: the casts to the same shape are the identity, the column of weights is read at
    row `p`, the bias at column `q`. -/
theorem pay_apply (x0 x1 : FVec Ideal S10000x64 .f32) (x2 : FVec Ideal S10000x1 .f32) (x3 : FVec Ideal S1x64 .f32) (p : Fin 10000) (q : Fin 64) :
    k1_pay1 x0 x1 x2 x3 (ix2 p q) = max ((x0 (ix2 p q) + x1 (ix2 p q) * x2 (ix2 p 0)) + x3 (ix2 0 q)) (Ideal.ofBits .f32 0x00000000#32) := by
  unfold k1_pay1
  simp only [shapeCast_self]
  show max ((x0 (ix2 p q) + x1 (ix2 p q) * broadcastTo S10000x64 x2 broadcasts_S10000x1_S10000x64 (ix2 p q))
      + broadcastTo S10000x64 x3 broadcasts_S1x64_S10000x64 (ix2 p q)) (Ideal.ofBits .f32 0x00000000#32) = _
  rw [broadcastTo_apply x2 broadcasts_S10000x1_S10000x64 (ix2 p q) (ix2 p 0) (fun a => match a with
        | ⟨0, _⟩ => by show p.val = if (10000 : Nat) = 1 then 0 else p.val; rw [if_neg (by decide)]
        | ⟨1, _⟩ => by show (0 : Nat) = if (1 : Nat) = 1 then 0 else q.val; rw [if_pos rfl]),
      broadcastTo_apply x3 broadcasts_S1x64_S10000x64 (ix2 p q) (ix2 0 q) (fun a => match a with
        | ⟨0, _⟩ => by show (0 : Nat) = if (1 : Nat) = 1 then 0 else p.val; rw [if_pos rfl]
        | ⟨1, _⟩ => by show q.val = if (64 : Nat) = 1 then 0 else q.val; rw [if_neg (by decide)])]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the aggregate's, the projection's, the weights' column's and the result's blocks move down
    the rows with the point; the bias row stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 10 :=
  (by decide +kernel : ∀ t : Fin grid1.N, _)

/-- Every block of rows is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- Row `p` of point `t`'s block is row `10000·t + p` of the array. -/
def row (t : Fin cfg1.N) (p : Fin 10000) : Fin 100000 :=
  ⟨t.val * 10000 + p.val, by have h := (idx_facts t).2.2.2.2.2.2.2.2.2.2; have := p.isLt; omega⟩

/-- What point `t` writes back is block `t` of the whole-array expression of the arrays as the region finds them. -/
theorem flushed_eq (c : Dev nD) (t : Fin cfg1.N) :
    (dat1 V c).flushed 4 t = ((cfg1.win 4).blk t).view.read (Elt Ideal) (comb (V c main_v41) (V c main_v28) (V c main_v27) (V c main_v42)) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz]
  obtain ⟨e0, e1, e2, e3, e4, e5, e6, e7, e8, e9, e10⟩ := idx_facts t
  funext y
  obtain ⟨p, q, rfl⟩ : ∃ (p : Fin 10000) (q : Fin 64), y = ix2 p q := ⟨y 0, y 1, eq_ix2 y⟩
  show k1_pay1 (iblk1 V c 0 t) (iblk1 V c 1 t) (iblk1 V c 2 t) (iblk1 V c 3 t) (ix2 p q)
    = comb (V c main_v41) (V c main_v28) (V c main_v27) (V c main_v42) (((cfg1.win 4).blk t).view.emb (ix2 p q))
  have hemb : ((cfg1.win 4).blk t).view.emb (ix2 p q) = ix2 (row t p) q := funext fun a => Fin.ext (by
    match a with
    | ⟨0, _⟩ => show win1_4.index t (0 : Fin 2) * 10000 + 1 * p.val = t.val * 10000 + p.val; omega
    | ⟨1, _⟩ => show win1_4.index t (1 : Fin 2) * 64 + 1 * q.val = q.val; omega)
  rw [hemb, comb_apply]
  refine (pay_apply (iblk1 V c 0 t) (iblk1 V c 1 t) (iblk1 V c 2 t) (iblk1 V c 3 t) p q).trans ?_
  have h0 : iblk1 V c 0 t (ix2 p q) = V c main_v41 (ix2 (row t p) q) := by
    show V c main_v41 (((cfg1.win 0).blk t).view.emb (ix2 p q)) = V c main_v41 (ix2 (row t p) q)
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * q.val = q.val; omega
  have h1 : iblk1 V c 1 t (ix2 p q) = V c main_v28 (ix2 (row t p) q) := by
    show V c main_v28 (((cfg1.win 1).blk t).view.emb (ix2 p q)) = V c main_v28 (ix2 (row t p) q)
    refine congrArg _ (funext fun a => Fin.ext ?_)
    match a with
    | ⟨0, _⟩ => show win1_1.index t (0 : Fin 2) * 10000 + 1 * p.val = t.val * 10000 + p.val; omega
    | ⟨1, _⟩ => show win1_1.index t (1 : Fin 2) * 64 + 1 * q.val = q.val; omega
  have h2 : iblk1 V c 2 t (ix2 p 0) = V c main_v27 (ix2 (row t p) 0) := by
    show V c main_v27 (((cfg1.win 2).blk t).view.emb (ix2 p 0)) = V c main_v27 (ix2 (row t p) 0)
    refine congrArg _ (funext fun a => Fin.ext ?_)
    match a with
    | ⟨0, _⟩ => show win1_2.index t (0 : Fin 2) * 10000 + 1 * p.val = t.val * 10000 + p.val; omega
    | ⟨1, _⟩ => show win1_2.index t (1 : Fin 2) * 1 + 1 * 0 = 0; omega
  have h3 : iblk1 V c 3 t (ix2 0 q) = V c main_v42 (ix2 0 q) := by
    show V c main_v42 (((cfg1.win 3).blk t).view.emb (ix2 0 q)) = V c main_v42 (ix2 0 q)
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega
  rw [h0, h1, h2, h3]

/-- An index of the array is in point `t`'s block iff each coordinate is in the block's range on its axis. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v43).slice (win1_4.rect t)).set ↔ _
  rw [View.set_slice_whole, Rect.mem_set_unit]
  exact Iff.rfl

/-- Row `r` is covered by the point `r / 10000`. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- After the region the result array is the whole-array expression of the four arrays as the region found them. -/
theorem final (c : Dev nD) : (dat1 V c).arrAt 4 cfg1.N = comb (V c main_v41) (V c main_v28) (V c main_v27) (V c main_v42) :=
  (dat1 V c).arrAt_eq_of_cover 4 _ (fun t _ => flushed_eq V c t) cover

end Cert.KernelIdeal.Comb1

end
-- ==== Proof.Comb2.lean ====
/-
  The second layer's combination: the aggregated messages plus the self-loop term plus the bias, clamped at zero.

  Grid point `t` takes rows `10000·t … 10000·t + 9999` of the aggregate and of the projected features, the same
  rows of the one-column array of self-loop weights, and the one-row bias, and stores
  `max ((agg + h · s) + b, 0)` entry by entry, the column of weights read along each row and the bias down
  each column. Entry `(p, q)` of the block depends only on row `10000·t + p` and column `q` of the arrays, so it
  is entry `(10000·t + p, q)` of the same expression written once over the whole arrays with the host's
  broadcasts; the ten blocks tile the rows. After the region the result array is that whole-array expression.
-/
import proofs.«164985_j79766132621709_1_alg».proof.Proof.Gen.KernelIdeal.Frame
import proofs.«164985_j79766132621709_1_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.KernelIdeal.Comb2

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- `max ((agg + h · s) + b, 0)` over whole arrays: `s` one column broadcast along the rows, `b` one row broadcast
    down the columns, zero a broadcast scalar. -/
abbrev comb (agg h : FVec Ideal S100000x64 .f32) (s : FVec Ideal S100000x1 .f32) (b : FVec Ideal S1x64 .f32) : FVec Ideal S100000x64 .f32 :=
  maximumf (F := Ideal)
    (addf (F := Ideal)
      (addf (F := Ideal) agg (mulf (F := Ideal) h
        (broadcastInDim Cert.ReferenceIdeal.S100000x64 ![0, 1] Cert.ReferenceIdeal.Gen.bcast_S100000x1_S100000x64_0_1 s)))
      (broadcastInDim Cert.ReferenceIdeal.S100000x64 ![0, 1] Cert.ReferenceIdeal.Gen.bcast_S1x64_S100000x64_0_1 b))
    (broadcastInDim Cert.ReferenceIdeal.S100000x64 ![] Cert.ReferenceIdeal.Gen.bcast_S_S100000x64 (constant (F := Ideal) Cert.ReferenceIdeal.S_ .f32 0x00000000#32))

theorem bcol_apply (s : FVec Ideal S100000x1 .f32) (r : Fin 100000) (j : Fin 64) :
    broadcastInDim Cert.ReferenceIdeal.S100000x64 ![0, 1] Cert.ReferenceIdeal.Gen.bcast_S100000x1_S100000x64_0_1 s (ix2 r j) = s (ix2 r 0) :=
  broadcastInDim_apply _ Cert.ReferenceIdeal.Gen.bcast_S100000x1_S100000x64_0_1 s (ix2 r j) (ix2 r 0) (fun a => match a with
    | ⟨0, _⟩ => by show r.val = if (100000 : Nat) = 1 then 0 else r.val; rw [if_neg (by decide)]
    | ⟨1, _⟩ => by show (0 : Nat) = if (1 : Nat) = 1 then 0 else j.val; rw [if_pos rfl])

theorem brow_apply (b : FVec Ideal S1x64 .f32) (r : Fin 100000) (j : Fin 64) :
    broadcastInDim Cert.ReferenceIdeal.S100000x64 ![0, 1] Cert.ReferenceIdeal.Gen.bcast_S1x64_S100000x64_0_1 b (ix2 r j) = b (ix2 0 j) :=
  broadcastInDim_apply _ Cert.ReferenceIdeal.Gen.bcast_S1x64_S100000x64_0_1 b (ix2 r j) (ix2 0 j) (fun a => match a with
    | ⟨0, _⟩ => by show (0 : Nat) = if (1 : Nat) = 1 then 0 else r.val; rw [if_pos rfl]
    | ⟨1, _⟩ => by show j.val = if (64 : Nat) = 1 then 0 else j.val; rw [if_neg (by decide)])

theorem bzero_apply (i : S100000x64.Idx) :
    broadcastInDim Cert.ReferenceIdeal.S100000x64 ![] Cert.ReferenceIdeal.Gen.bcast_S_S100000x64 (constant (F := Ideal) Cert.ReferenceIdeal.S_ .f32 0x00000000#32) i
      = Ideal.ofBits .f32 0x00000000#32 :=
  broadcastInDim_apply _ Cert.ReferenceIdeal.Gen.bcast_S_S100000x64 _ i ix0 (fun a => a.elim0)

/-- The whole-array expression at entry `(r, j)`. -/
theorem comb_apply (agg h : FVec Ideal S100000x64 .f32) (s : FVec Ideal S100000x1 .f32) (b : FVec Ideal S1x64 .f32) (r : Fin 100000) (j : Fin 64) :
    comb agg h s b (ix2 r j) = max ((agg (ix2 r j) + h (ix2 r j) * s (ix2 r 0)) + b (ix2 0 j)) (Ideal.ofBits .f32 0x00000000#32) := by
  show max ((agg (ix2 r j) + h (ix2 r j) * broadcastInDim Cert.ReferenceIdeal.S100000x64 ![0, 1] Cert.ReferenceIdeal.Gen.bcast_S100000x1_S100000x64_0_1 s (ix2 r j))
      + broadcastInDim Cert.ReferenceIdeal.S100000x64 ![0, 1] Cert.ReferenceIdeal.Gen.bcast_S1x64_S100000x64_0_1 b (ix2 r j))
      (broadcastInDim Cert.ReferenceIdeal.S100000x64 ![] Cert.ReferenceIdeal.Gen.bcast_S_S100000x64 (constant (F := Ideal) Cert.ReferenceIdeal.S_ .f32 0x00000000#32) (ix2 r j)) = _
  rw [bcol_apply, brow_apply, bzero_apply]

/-! ## The block's stored value at an entry -/

/-- Entry `(p, q)` of what the body stores: the casts to the same shape are the identity, the column of weights is read at
    row `p`, the bias at column `q`. -/
theorem pay_apply (x0 x1 : FVec Ideal S10000x64 .f32) (x2 : FVec Ideal S10000x1 .f32) (x3 : FVec Ideal S1x64 .f32) (p : Fin 10000) (q : Fin 64) :
    k3_pay1 x0 x1 x2 x3 (ix2 p q) = max ((x0 (ix2 p q) + x1 (ix2 p q) * x2 (ix2 p 0)) + x3 (ix2 0 q)) (Ideal.ofBits .f32 0x00000000#32) := by
  unfold k3_pay1
  simp only [shapeCast_self]
  show max ((x0 (ix2 p q) + x1 (ix2 p q) * broadcastTo S10000x64 x2 broadcasts_S10000x1_S10000x64 (ix2 p q))
      + broadcastTo S10000x64 x3 broadcasts_S1x64_S10000x64 (ix2 p q)) (Ideal.ofBits .f32 0x00000000#32) = _
  rw [broadcastTo_apply x2 broadcasts_S10000x1_S10000x64 (ix2 p q) (ix2 p 0) (fun a => match a with
        | ⟨0, _⟩ => by show p.val = if (10000 : Nat) = 1 then 0 else p.val; rw [if_neg (by decide)]
        | ⟨1, _⟩ => by show (0 : Nat) = if (1 : Nat) = 1 then 0 else q.val; rw [if_pos rfl]),
      broadcastTo_apply x3 broadcasts_S1x64_S10000x64 (ix2 p q) (ix2 0 q) (fun a => match a with
        | ⟨0, _⟩ => by show (0 : Nat) = if (1 : Nat) = 1 then 0 else p.val; rw [if_pos rfl]
        | ⟨1, _⟩ => by show q.val = if (64 : Nat) = 1 then 0 else q.val; rw [if_neg (by decide)])]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the aggregate's, the projection's, the weights' column's and the result's blocks move down
    the rows with the point; the bias row stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 10 :=
  (by decide +kernel : ∀ t : Fin grid3.N, _)

/-- Every block of rows is some point's. -/
theorem idx_onto : ∀ q0 : Fin 10, ∃ t : Fin cfg3.N, win3_4.index t = ![q0.val, 0] :=
  (by decide +kernel : ∀ q0 : Fin 10, ∃ t : Fin grid3.N, win3_4.index t = ![q0.val, 0])

/-- Row `p` of point `t`'s block is row `10000·t + p` of the array. -/
def row (t : Fin cfg3.N) (p : Fin 10000) : Fin 100000 :=
  ⟨t.val * 10000 + p.val, by have h := (idx_facts t).2.2.2.2.2.2.2.2.2.2; have := p.isLt; omega⟩

/-- What point `t` writes back is block `t` of the whole-array expression of the arrays as the region finds them. -/
theorem flushed_eq (c : Dev nD) (t : Fin cfg3.N) :
    (dat3 V c).flushed 4 t = ((cfg3.win 4).blk t).view.read (Elt Ideal) (comb (V c main_v57) (V c main_v44) (V c main_v27) (V c main_v58)) := by
  show (cfg3.win 4).cut (grid3.coords t) ((dat3 V c).after 4 t) = _
  rw [after3_4]
  unfold out3_4
  rw [View.canon_unit_zero hz]
  simp only [View.ld_unit_zero (S := S10000x64) hz, View.ld_unit_zero (S := S10000x1) hz, View.ld_unit_zero (S := S1x64) hz]
  obtain ⟨e0, e1, e2, e3, e4, e5, e6, e7, e8, e9, e10⟩ := idx_facts t
  funext y
  obtain ⟨p, q, rfl⟩ : ∃ (p : Fin 10000) (q : Fin 64), y = ix2 p q := ⟨y 0, y 1, eq_ix2 y⟩
  show k3_pay1 (iblk3 V c 0 t) (iblk3 V c 1 t) (iblk3 V c 2 t) (iblk3 V c 3 t) (ix2 p q)
    = comb (V c main_v57) (V c main_v44) (V c main_v27) (V c main_v58) (((cfg3.win 4).blk t).view.emb (ix2 p q))
  have hemb : ((cfg3.win 4).blk t).view.emb (ix2 p q) = ix2 (row t p) q := funext fun a => Fin.ext (by
    match a with
    | ⟨0, _⟩ => show win3_4.index t (0 : Fin 2) * 10000 + 1 * p.val = t.val * 10000 + p.val; omega
    | ⟨1, _⟩ => show win3_4.index t (1 : Fin 2) * 64 + 1 * q.val = q.val; omega)
  rw [hemb, comb_apply]
  refine (pay_apply (iblk3 V c 0 t) (iblk3 V c 1 t) (iblk3 V c 2 t) (iblk3 V c 3 t) p q).trans ?_
  have h0 : iblk3 V c 0 t (ix2 p q) = V c main_v57 (ix2 (row t p) q) := by
    show V c main_v57 (((cfg3.win 0).blk t).view.emb (ix2 p q)) = V c main_v57 (ix2 (row t p) q)
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * q.val = q.val; omega
  have h1 : iblk3 V c 1 t (ix2 p q) = V c main_v44 (ix2 (row t p) q) := by
    show V c main_v44 (((cfg3.win 1).blk t).view.emb (ix2 p q)) = V c main_v44 (ix2 (row t p) q)
    refine congrArg _ (funext fun a => Fin.ext ?_)
    match a with
    | ⟨0, _⟩ => show win3_1.index t (0 : Fin 2) * 10000 + 1 * p.val = t.val * 10000 + p.val; omega
    | ⟨1, _⟩ => show win3_1.index t (1 : Fin 2) * 64 + 1 * q.val = q.val; omega
  have h2 : iblk3 V c 2 t (ix2 p 0) = V c main_v27 (ix2 (row t p) 0) := by
    show V c main_v27 (((cfg3.win 2).blk t).view.emb (ix2 p 0)) = V c main_v27 (ix2 (row t p) 0)
    refine congrArg _ (funext fun a => Fin.ext ?_)
    match a with
    | ⟨0, _⟩ => show win3_2.index t (0 : Fin 2) * 10000 + 1 * p.val = t.val * 10000 + p.val; omega
    | ⟨1, _⟩ => show win3_2.index t (1 : Fin 2) * 1 + 1 * 0 = 0; omega
  have h3 : iblk3 V c 3 t (ix2 0 q) = V c main_v58 (ix2 0 q) := by
    show V c main_v58 (((cfg3.win 3).blk t).view.emb (ix2 0 q)) = V c main_v58 (ix2 0 q)
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * q.val = q.val; omega
  rw [h0, h1, h2, h3]

/-- An index of the array is in point `t`'s block iff each coordinate is in the block's range on its axis. -/
theorem mem_blk (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v59).slice (win3_4.rect t)).set ↔ _
  rw [View.set_slice_whole, Rect.mem_set_unit]
  exact Iff.rfl

/-- Row `r` is covered by the point `r / 10000`. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := idx_onto ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 64 ≤ (i 1).val ∧ (i 1).val < win3_4.index t (1 : Fin 2) * 64 + 64; omega

/-- After the region the result array is the whole-array expression of the four arrays as the region found them. -/
theorem final (c : Dev nD) : (dat3 V c).arrAt 4 cfg3.N = comb (V c main_v57) (V c main_v44) (V c main_v27) (V c main_v58) :=
  (dat3 V c).arrAt_eq_of_cover 4 _ (fun t _ => flushed_eq V c t) cover

end Cert.KernelIdeal.Comb2

end
-- ==== Proof.Readout.lean ====
/-
  The graph-level readout: a two-layer perceptron and a sigmoid on the pooled graph embeddings.

  The kernel has one grid point whose blocks are the whole arrays. From the embeddings `g`, the weights `w1`, `w2` and
  the one-row biases `b1`, `b2` it stores `sigmoid (max (g·w1 + b1, 0)·w2 + b2)`: both products into zero accumulators,
  the roundings to bf16 the identity at the ideal values, and the sigmoid one operation, which at the ideal
  values IS `1 / (1 + exp (−x))` on every extended real. The host spells the same thing with its own matrix
  products, broadcasts, negation, exponential, sum with one and quotient of one; entry by entry the two agree,
  the literal `1.0` denoting the real one.
-/
import proofs.«164985_j79766132621709_1_alg».proof.Proof.Gen.KernelIdeal.Frame
import proofs.«164985_j79766132621709_1_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.KernelIdeal.Readout

open Cert.KernelIdeal Cert.KernelIdeal.Gen
open Idealize.ShloMosaic Idealize.ShloMosaic.TcCoe Idealize.SL.Sem Idealize.ShloMosaic.ValueIdx
open Idealize.ShloMosaic.Pipeline (Dat Cfg Window)

abbrev RD1 := Cert.ReferenceIdeal.dot_S2048x64_S64x32_S2048x32_1_0_0_1_n_n
abbrev RD2 := Cert.ReferenceIdeal.dot_S2048x32_S32x1_S2048x1_1_0_0_1_n_n

/-- The host's spelling over whole arrays: `1 / (1 + exp (−(max (g·w1 + b1, 0)·w2 + b2)))`. -/
abbrev readout (g : FVec Ideal S2048x64 .f32) (w1 : FVec Ideal S64x32 .f32) (b1 : FVec Ideal S1x32 .f32)
    (w2 : FVec Ideal S32x1 .f32) (b2 : FVec Ideal S1x1 .f32) : FVec Ideal S2048x1 .f32 :=
  Host.divf (F := Ideal)
    (broadcastInDim Cert.ReferenceIdeal.S2048x1 ![] Cert.ReferenceIdeal.Gen.bcast_S_S2048x1 (constant (F := Ideal) Cert.ReferenceIdeal.S_ .f32 0x3F800000#32))
    (addf (F := Ideal)
      (broadcastInDim Cert.ReferenceIdeal.S2048x1 ![] Cert.ReferenceIdeal.Gen.bcast_S_S2048x1 (constant (F := Ideal) Cert.ReferenceIdeal.S_ .f32 0x3F800000#32))
      (Host.exp (F := Ideal) (Host.negf (F := Ideal) (addf (F := Ideal)
        (Host.dotGeneral (F := Ideal) (φ₁ := .f32) (φ₂ := .f32) RD2 none
          (maximumf (F := Ideal)
            (addf (F := Ideal) (Host.dotGeneral (F := Ideal) (φ₁ := .f32) (φ₂ := .f32) RD1 none g w1)
              (broadcastInDim Cert.ReferenceIdeal.S2048x32 ![0, 1] Cert.ReferenceIdeal.Gen.bcast_S1x32_S2048x32_0_1 b1))
            (broadcastInDim Cert.ReferenceIdeal.S2048x32 ![] Cert.ReferenceIdeal.Gen.bcast_S_S2048x32 (constant (F := Ideal) Cert.ReferenceIdeal.S_ .f32 0x00000000#32)))
          w2)
        (broadcastInDim Cert.ReferenceIdeal.S2048x1 ![0, 1] Cert.ReferenceIdeal.Gen.bcast_S1x1_S2048x1_0_1 b2)))))

/-! ## The host's pieces at an entry -/

theorem hd1_apply (g : FVec Ideal S2048x64 .f32) (w : FVec Ideal S64x32 .f32) (r : Fin 2048) (k : Fin 32) :
    Host.dotGeneral (F := Ideal) (φ₁ := .f32) (φ₂ := .f32) RD1 none g w (ix2 r k) = ∑ l : Fin 64, g (ix2 r l) * w (ix2 l k) := by
  show FloatOps.dotGeneral RD1 none _ g w (ix2 r k) = _
  rw [Ideal.dotGeneral_apply, ← Equiv.sum_comp (contrEquiv1 RD1 64 rfl rfl).symm]
  refine Finset.sum_congr rfl fun l _ => ?_
  have hl := contrEquiv1_symm_val RD1 64 rfl rfl l
  have el : RD1.lhsIdx (ix2 r k) ((contrEquiv1 RD1 64 rfl rfl).symm l) = ix2 r l := funext fun a => Fin.ext (by
    match a with
    | ⟨0, _⟩ => exact Cert.ReferenceIdeal.Read.lhs_main_v99_0 _ _
    | ⟨1, _⟩ => exact (Cert.ReferenceIdeal.Read.lhs_main_v99_1 _ _).trans hl)
  have er : RD1.rhsIdx (ix2 r k) ((contrEquiv1 RD1 64 rfl rfl).symm l) = ix2 l k := funext fun a => Fin.ext (by
    match a with
    | ⟨0, _⟩ => exact (Cert.ReferenceIdeal.Read.rhs_main_v99_0 _ _).trans hl
    | ⟨1, _⟩ => exact Cert.ReferenceIdeal.Read.rhs_main_v99_1 _ _)
  rw [el, er]

theorem hd2_apply (h : FVec Ideal S2048x32 .f32) (w : FVec Ideal S32x1 .f32) (r : Fin 2048) (z : Fin 1) :
    Host.dotGeneral (F := Ideal) (φ₁ := .f32) (φ₂ := .f32) RD2 none h w (ix2 r z) = ∑ k : Fin 32, h (ix2 r k) * w (ix2 k z) := by
  show FloatOps.dotGeneral RD2 none _ h w (ix2 r z) = _
  rw [Ideal.dotGeneral_apply, ← Equiv.sum_comp (contrEquiv1 RD2 32 rfl rfl).symm]
  refine Finset.sum_congr rfl fun k _ => ?_
  have hk := contrEquiv1_symm_val RD2 32 rfl rfl k
  have el : RD2.lhsIdx (ix2 r z) ((contrEquiv1 RD2 32 rfl rfl).symm k) = ix2 r k := funext fun a => Fin.ext (by
    match a with
    | ⟨0, _⟩ => exact Cert.ReferenceIdeal.Read.lhs_main_v104_0 _ _
    | ⟨1, _⟩ => exact (Cert.ReferenceIdeal.Read.lhs_main_v104_1 _ _).trans hk)
  have er : RD2.rhsIdx (ix2 r z) ((contrEquiv1 RD2 32 rfl rfl).symm k) = ix2 k z := funext fun a => Fin.ext (by
    match a with
    | ⟨0, _⟩ => exact (Cert.ReferenceIdeal.Read.rhs_main_v104_0 _ _).trans hk
    | ⟨1, _⟩ => exact Cert.ReferenceIdeal.Read.rhs_main_v104_1 _ _)
  rw [el, er]

theorem bb1_apply (b : FVec Ideal S1x32 .f32) (r : Fin 2048) (k : Fin 32) :
    broadcastInDim Cert.ReferenceIdeal.S2048x32 ![0, 1] Cert.ReferenceIdeal.Gen.bcast_S1x32_S2048x32_0_1 b (ix2 r k) = b (ix2 0 k) :=
  broadcastInDim_apply _ Cert.ReferenceIdeal.Gen.bcast_S1x32_S2048x32_0_1 b (ix2 r k) (ix2 0 k) (fun a => match a with
    | ⟨0, _⟩ => by show (0 : Nat) = if (1 : Nat) = 1 then 0 else r.val; rw [if_pos rfl]
    | ⟨1, _⟩ => by show k.val = if (32 : Nat) = 1 then 0 else k.val; rw [if_neg (by decide)])

theorem bb2_apply (b : FVec Ideal S1x1 .f32) (r : Fin 2048) (z : Fin 1) :
    broadcastInDim Cert.ReferenceIdeal.S2048x1 ![0, 1] Cert.ReferenceIdeal.Gen.bcast_S1x1_S2048x1_0_1 b (ix2 r z) = b (ix2 0 0) :=
  broadcastInDim_apply _ Cert.ReferenceIdeal.Gen.bcast_S1x1_S2048x1_0_1 b (ix2 r z) (ix2 0 0) (fun a => match a with
    | ⟨0, _⟩ => by show (0 : Nat) = if (1 : Nat) = 1 then 0 else r.val; rw [if_pos rfl]
    | ⟨1, _⟩ => by show (0 : Nat) = if (1 : Nat) = 1 then 0 else z.val; rw [if_pos rfl])

theorem bz32_apply (i : S2048x32.Idx) :
    broadcastInDim Cert.ReferenceIdeal.S2048x32 ![] Cert.ReferenceIdeal.Gen.bcast_S_S2048x32 (constant (F := Ideal) Cert.ReferenceIdeal.S_ .f32 0x00000000#32) i
      = Ideal.ofBits .f32 0x00000000#32 :=
  broadcastInDim_apply _ Cert.ReferenceIdeal.Gen.bcast_S_S2048x32 _ i ix0 (fun a => a.elim0)

theorem bone_apply (i : S2048x1.Idx) :
    broadcastInDim Cert.ReferenceIdeal.S2048x1 ![] Cert.ReferenceIdeal.Gen.bcast_S_S2048x1 (constant (F := Ideal) Cert.ReferenceIdeal.S_ .f32 0x3F800000#32) i
      = Ideal.ofBits .f32 0x3F800000#32 :=
  broadcastInDim_apply _ Cert.ReferenceIdeal.Gen.bcast_S_S2048x1 _ i ix0 (fun a => a.elim0)

/-- The literal `1.0` denotes the real one. -/
theorem one_f32 : Ideal.ofBits .f32 0x3F800000#32 = 1 := by
  simp [Ideal.ofBits, Ideal.ieee, -EReal.coe_mul]; norm_num

/-- The pre-activation of the output unit of row `r`: `max (g·w1 + b1, 0)·w2 + b2` written out. -/
def pre (g : FVec Ideal S2048x64 .f32) (w1 : FVec Ideal S64x32 .f32) (b1 : FVec Ideal S1x32 .f32)
    (w2 : FVec Ideal S32x1 .f32) (b2 : FVec Ideal S1x1 .f32) (r : Fin 2048) (z : Fin 1) : EReal :=
  (∑ k : Fin 32, max ((∑ l : Fin 64, g (ix2 r l) * w1 (ix2 l k)) + b1 (ix2 0 k)) (Ideal.ofBits .f32 0x00000000#32) * w2 (ix2 k z)) + b2 (ix2 0 0)

/-- The host's spelling at entry `(r, z)`. -/
theorem readout_apply (g : FVec Ideal S2048x64 .f32) (w1 : FVec Ideal S64x32 .f32) (b1 : FVec Ideal S1x32 .f32)
    (w2 : FVec Ideal S32x1 .f32) (b2 : FVec Ideal S1x1 .f32) (r : Fin 2048) (z : Fin 1) :
    readout g w1 b1 w2 b2 (ix2 r z) = Ideal.div 1 (1 + Ideal.exp (-(pre g w1 b1 w2 b2 r z))) := by
  have hH : ∀ k : Fin 32, (maximumf (F := Ideal)
            (addf (F := Ideal) (Host.dotGeneral (F := Ideal) (φ₁ := .f32) (φ₂ := .f32) RD1 none g w1)
              (broadcastInDim Cert.ReferenceIdeal.S2048x32 ![0, 1] Cert.ReferenceIdeal.Gen.bcast_S1x32_S2048x32_0_1 b1))
            (broadcastInDim Cert.ReferenceIdeal.S2048x32 ![] Cert.ReferenceIdeal.Gen.bcast_S_S2048x32 (constant (F := Ideal) Cert.ReferenceIdeal.S_ .f32 0x00000000#32))) (ix2 r k)
        = max ((∑ l : Fin 64, g (ix2 r l) * w1 (ix2 l k)) + b1 (ix2 0 k)) (Ideal.ofBits .f32 0x00000000#32) := fun k => by
    show max (Host.dotGeneral (F := Ideal) (φ₁ := .f32) (φ₂ := .f32) RD1 none g w1 (ix2 r k)
        + broadcastInDim Cert.ReferenceIdeal.S2048x32 ![0, 1] Cert.ReferenceIdeal.Gen.bcast_S1x32_S2048x32_0_1 b1 (ix2 r k))
      (broadcastInDim Cert.ReferenceIdeal.S2048x32 ![] Cert.ReferenceIdeal.Gen.bcast_S_S2048x32 (constant (F := Ideal) Cert.ReferenceIdeal.S_ .f32 0x00000000#32) (ix2 r k)) = _
    rw [hd1_apply, bb1_apply, bz32_apply]
  show Ideal.div (broadcastInDim Cert.ReferenceIdeal.S2048x1 ![] Cert.ReferenceIdeal.Gen.bcast_S_S2048x1 (constant (F := Ideal) Cert.ReferenceIdeal.S_ .f32 0x3F800000#32) (ix2 r z))
      (broadcastInDim Cert.ReferenceIdeal.S2048x1 ![] Cert.ReferenceIdeal.Gen.bcast_S_S2048x1 (constant (F := Ideal) Cert.ReferenceIdeal.S_ .f32 0x3F800000#32) (ix2 r z)
        + Ideal.exp (-(Host.dotGeneral (F := Ideal) (φ₁ := .f32) (φ₂ := .f32) RD2 none _ w2 (ix2 r z)
            + broadcastInDim Cert.ReferenceIdeal.S2048x1 ![0, 1] Cert.ReferenceIdeal.Gen.bcast_S1x1_S2048x1_0_1 b2 (ix2 r z)))) = _
  rw [bone_apply, one_f32, hd2_apply, bb2_apply]
  unfold pre
  simp only [hH]

/-! ## The kernel's stored value at an entry -/

abbrev D1 := dot_S2048x64_S64x32_S2048x32_1_0_0_1_n_n
abbrev D2 := dot_S2048x32_S32x1_S2048x1_1_0_0_1_n_n

theorem d1_lhs0 (i : S2048x32.Idx) (q : D1.contr.Idx) : (D1.lhsIdx i q 0).val = (i 0).val := by
  unfold DotDims.lhsIdx
  rw [dif_neg (show ¬(0 : Fin S2048x64.rank) ∈ D1.lhsBatch by decide), dif_pos (show (0 : Fin S2048x64.rank) ∈ D1.lhsNonContracting by decide)]
  rfl
theorem d1_lhs1 (i : S2048x32.Idx) (q : D1.contr.Idx) : (D1.lhsIdx i q 1).val = (q ⟨0, by decide⟩).val := D1.lhsIdx_val_of_single rfl i q
theorem d1_rhs0 (i : S2048x32.Idx) (q : D1.contr.Idx) : (D1.rhsIdx i q 0).val = (q ⟨0, by decide⟩).val := D1.rhsIdx_val_of_single rfl i q
theorem d1_rhs1 (i : S2048x32.Idx) (q : D1.contr.Idx) : (D1.rhsIdx i q 1).val = (i 1).val := by
  unfold DotDims.rhsIdx
  rw [dif_neg (show ¬(1 : Fin S64x32.rank) ∈ D1.rhsBatch by decide), dif_pos (show (1 : Fin S64x32.rank) ∈ D1.rhsNonContracting by decide)]
  rfl
theorem d2_lhs0 (i : S2048x1.Idx) (q : D2.contr.Idx) : (D2.lhsIdx i q 0).val = (i 0).val := by
  unfold DotDims.lhsIdx
  rw [dif_neg (show ¬(0 : Fin S2048x32.rank) ∈ D2.lhsBatch by decide), dif_pos (show (0 : Fin S2048x32.rank) ∈ D2.lhsNonContracting by decide)]
  rfl
theorem d2_lhs1 (i : S2048x1.Idx) (q : D2.contr.Idx) : (D2.lhsIdx i q 1).val = (q ⟨0, by decide⟩).val := D2.lhsIdx_val_of_single rfl i q
theorem d2_rhs0 (i : S2048x1.Idx) (q : D2.contr.Idx) : (D2.rhsIdx i q 0).val = (q ⟨0, by decide⟩).val := D2.rhsIdx_val_of_single rfl i q
theorem d2_rhs1 (i : S2048x1.Idx) (q : D2.contr.Idx) : (D2.rhsIdx i q 1).val = (i 1).val := by
  unfold DotDims.rhsIdx
  rw [dif_neg (show ¬(1 : Fin S32x1.rank) ∈ D2.rhsBatch by decide), dif_pos (show (1 : Fin S32x1.rank) ∈ D2.rhsNonContracting by decide)]
  rfl

/-- The first product into a zero accumulator, at entry `(r, k)`. -/
theorem mm1_apply (a : FVec Ideal S2048x64 .bf16) (b : FVec Ideal S64x32 .bf16) (r : Fin 2048) (k : Fin 32) :
    matmul (F := Ideal) D1 none a b (constant (F := Ideal) S2048x32 .f32 0x00000000#32) (ix2 r k) = ∑ l : Fin 64, a (ix2 r l) * b (ix2 l k) := by
  refine (Ideal.matmul_constant_zero_apply D1 none _ _ (ix2 r k)).trans ?_
  rw [← Equiv.sum_comp (contrEquiv1 D1 64 rfl rfl).symm]
  refine Finset.sum_congr rfl fun l _ => ?_
  have hl := contrEquiv1_symm_val D1 64 rfl rfl l
  have el : D1.lhsIdx (ix2 r k) ((contrEquiv1 D1 64 rfl rfl).symm l) = ix2 r l := funext fun a => Fin.ext (by
    match a with
    | ⟨0, _⟩ => exact d1_lhs0 _ _
    | ⟨1, _⟩ => exact (d1_lhs1 _ _).trans hl)
  have er : D1.rhsIdx (ix2 r k) ((contrEquiv1 D1 64 rfl rfl).symm l) = ix2 l k := funext fun a => Fin.ext (by
    match a with
    | ⟨0, _⟩ => exact (d1_rhs0 _ _).trans hl
    | ⟨1, _⟩ => exact d1_rhs1 _ _)
  rw [el, er]

/-- The second product into a zero accumulator, at entry `(r, z)`. -/
theorem mm2_apply (a : FVec Ideal S2048x32 .bf16) (b : FVec Ideal S32x1 .bf16) (r : Fin 2048) (z : Fin 1) :
    matmul (F := Ideal) D2 none a b (constant (F := Ideal) S2048x1 .f32 0x00000000#32) (ix2 r z) = ∑ k : Fin 32, a (ix2 r k) * b (ix2 k z) := by
  refine (Ideal.matmul_constant_zero_apply D2 none _ _ (ix2 r z)).trans ?_
  rw [← Equiv.sum_comp (contrEquiv1 D2 32 rfl rfl).symm]
  refine Finset.sum_congr rfl fun k _ => ?_
  have hk := contrEquiv1_symm_val D2 32 rfl rfl k
  have el : D2.lhsIdx (ix2 r z) ((contrEquiv1 D2 32 rfl rfl).symm k) = ix2 r k := funext fun a => Fin.ext (by
    match a with
    | ⟨0, _⟩ => exact d2_lhs0 _ _
    | ⟨1, _⟩ => exact (d2_lhs1 _ _).trans hk)
  have er : D2.rhsIdx (ix2 r z) ((contrEquiv1 D2 32 rfl rfl).symm k) = ix2 k z := funext fun a => Fin.ext (by
    match a with
    | ⟨0, _⟩ => exact (d2_rhs0 _ _).trans hk
    | ⟨1, _⟩ => exact d2_rhs1 _ _)
  rw [el, er]

/-- Entry `(r, z)` of what the body stores: the sigmoid of the pre-activation, and the sigmoid at the ideal values is
    `1 / (1 + exp (−x))` by definition. -/
theorem pay_apply (x0 : FVec Ideal S2048x64 .f32) (x1 : FVec Ideal S64x32 .f32) (x2 : FVec Ideal S1x32 .f32)
    (x3 : FVec Ideal S32x1 .f32) (x4 : FVec Ideal S1x1 .f32) (r : Fin 2048) (z : Fin 1) :
    k4_pay1 (F := Ideal) x0 x1 x2 x3 x4 (ix2 r z) = Ideal.div 1 (1 + Ideal.exp (-(pre x0 x1 x2 x3 x4 r z))) := by
  unfold k4_pay1
  simp only [shapeCast_self]
  have hH : ∀ k : Fin 32, (truncf (F := Ideal) .bf16 (maximumf (F := Ideal)
        (addf (F := Ideal) (matmul (F := Ideal) D1 none (truncf (F := Ideal) .bf16 x0 bitsLt_bf16_f32) (truncf (F := Ideal) .bf16 x1 bitsLt_bf16_f32) (constant (F := Ideal) S2048x32 .f32 0x00000000#32))
          (broadcastTo S2048x32 x2 broadcasts_S1x32_S2048x32))
        (broadcast S2048x32 (Scalar.ofBits (F := Ideal) .f32 0x00000000#32))) bitsLt_bf16_f32) (ix2 r k)
      = max ((∑ l : Fin 64, x0 (ix2 r l) * x1 (ix2 l k)) + x2 (ix2 0 k)) (Ideal.ofBits .f32 0x00000000#32) := fun k => by
    show max (matmul (F := Ideal) D1 none (truncf (F := Ideal) .bf16 x0 bitsLt_bf16_f32) (truncf (F := Ideal) .bf16 x1 bitsLt_bf16_f32) (constant (F := Ideal) S2048x32 .f32 0x00000000#32) (ix2 r k)
        + broadcastTo S2048x32 x2 broadcasts_S1x32_S2048x32 (ix2 r k)) (Ideal.ofBits .f32 0x00000000#32) = _
    rw [mm1_apply, broadcastTo_apply x2 broadcasts_S1x32_S2048x32 (ix2 r k) (ix2 0 k) (fun a => match a with
        | ⟨0, _⟩ => by show (0 : Nat) = if (1 : Nat) = 1 then 0 else r.val; rw [if_pos rfl]
        | ⟨1, _⟩ => by show k.val = if (32 : Nat) = 1 then 0 else k.val; rw [if_neg (by decide)])]
    rfl
  show Ideal.div 1 (1 + Ideal.exp (-(matmul (F := Ideal) D2 none _ (truncf (F := Ideal) .bf16 x3 bitsLt_bf16_f32) (constant (F := Ideal) S2048x1 .f32 0x00000000#32) (ix2 r z)
      + broadcastTo S2048x1 x4 broadcasts_S1x1_S2048x1 (ix2 r z)))) = _
  rw [mm2_apply, broadcastTo_apply x4 broadcasts_S1x1_S2048x1 (ix2 r z) (ix2 0 0) (fun a => match a with
        | ⟨0, _⟩ => by show (0 : Nat) = if (1 : Nat) = 1 then 0 else r.val; rw [if_pos rfl]
        | ⟨1, _⟩ => by show (0 : Nat) = if (1 : Nat) = 1 then 0 else z.val; rw [if_pos rfl])]
  unfold pre
  simp only [hH]
  rfl

/-! ## From the one block to the array -/

variable (V : (c : Dev nD) → (b : Ref sig .tc) → Buf (Elt Ideal) ((c : Thread nD τ).loc b))

theorem hz : (![0, 0] : Fin 2 → Nat) = fun _ => 0 := funext fun a => by fin_cases a <;> rfl

/-- The one grid point's blocks are the whole arrays. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- What the one point writes back is the host's spelling of the arrays as the region finds them. -/
theorem flushed_eq (c : Dev nD) (t : Fin cfg4.N) :
    (dat4 V c).flushed 5 t = ((cfg4.win 5).blk t).view.read (Elt Ideal)
      (readout (V c main_v71) (V c main_arg7) (V c main_v72) (V c main_arg9) (V c main_v73)) := by
  show (cfg4.win 5).cut (grid4.coords t) ((dat4 V c).after 5 t) = _
  rw [after4_5]
  unfold out4_5
  rw [View.canon_unit_zero hz]
  simp only [View.ld_unit_zero (S := S2048x64) hz, View.ld_unit_zero (S := S64x32) hz, View.ld_unit_zero (S := S1x32) hz,
    View.ld_unit_zero (S := S32x1) hz, View.ld_unit_zero (S := S1x1) hz]
  obtain ⟨e0, e1, e2, e3, e4, e5, e6, e7, e8, e9, e10, e11⟩ := idx_facts t
  funext y
  obtain ⟨r, z, rfl⟩ : ∃ (r : Fin 2048) (z : Fin 1), y = ix2 r z := ⟨y 0, y 1, eq_ix2 y⟩
  show k4_pay1 (iblk4 V c 0 t) (iblk4 V c 1 t) (iblk4 V c 2 t) (iblk4 V c 3 t) (iblk4 V c 4 t) (ix2 r z)
    = readout (V c main_v71) (V c main_arg7) (V c main_v72) (V c main_arg9) (V c main_v73) (((cfg4.win 5).blk t).view.emb (ix2 r z))
  have hemb : ((cfg4.win 5).blk t).view.emb (ix2 r z) = ix2 r z := funext fun a => Fin.ext (by
    match a with
    | ⟨0, _⟩ => show win4_5.index t (0 : Fin 2) * 2048 + 1 * r.val = r.val; omega
    | ⟨1, _⟩ => show win4_5.index t (1 : Fin 2) * 1 + 1 * z.val = z.val; omega)
  rw [hemb, readout_apply]
  refine (pay_apply (iblk4 V c 0 t) (iblk4 V c 1 t) (iblk4 V c 2 t) (iblk4 V c 3 t) (iblk4 V c 4 t) r z).trans ?_
  have h0 : iblk4 V c 0 t = V c main_v71 := funext fun y => by
    show V c main_v71 (((cfg4.win 0).blk t).view.emb y) = V c main_v71 y
    refine congrArg _ (funext fun a => Fin.ext ?_)
    match a with
    | ⟨0, _⟩ => show win4_0.index t (0 : Fin 2) * 2048 + 1 * (y 0).val = (y 0).val; omega
    | ⟨1, _⟩ => show win4_0.index t (1 : Fin 2) * 64 + 1 * (y 1).val = (y 1).val; omega
  have h1 : iblk4 V c 1 t = V c main_arg7 := funext fun y => by
    show V c main_arg7 (((cfg4.win 1).blk t).view.emb y) = V c main_arg7 y
    refine congrArg _ (funext fun a => Fin.ext ?_)
    match a with
    | ⟨0, _⟩ => show win4_1.index t (0 : Fin 2) * 64 + 1 * (y 0).val = (y 0).val; omega
    | ⟨1, _⟩ => show win4_1.index t (1 : Fin 2) * 32 + 1 * (y 1).val = (y 1).val; omega
  have h2 : iblk4 V c 2 t = V c main_v72 := funext fun y => by
    show V c main_v72 (((cfg4.win 2).blk t).view.emb y) = V c main_v72 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 32 + 1 * (y 1).val = (y 1).val; omega
  have h3 : iblk4 V c 3 t = V c main_arg9 := funext fun y => by
    show V c main_arg9 (((cfg4.win 3).blk t).view.emb y) = V c main_arg9 y
    refine congrArg _ (funext fun a => Fin.ext ?_)
    match a with
    | ⟨0, _⟩ => show win4_3.index t (0 : Fin 2) * 32 + 1 * (y 0).val = (y 0).val; omega
    | ⟨1, _⟩ => show win4_3.index t (1 : Fin 2) * 1 + 1 * (y 1).val = (y 1).val; omega
  have h4 : iblk4 V c 4 t = V c main_v73 := funext fun y => by
    show V c main_v73 (((cfg4.win 4).blk t).view.emb y) = V c main_v73 y
    refine congrArg _ (funext fun a => Fin.ext ?_)
    match a with
    | ⟨0, _⟩ => show win4_4.index t (0 : Fin 2) * 1 + 1 * (y 0).val = (y 0).val; omega
    | ⟨1, _⟩ => show win4_4.index t (1 : Fin 2) * 1 + 1 * (y 1).val = (y 1).val; omega
  rw [h0, h1, h2, h3, h4]

/-- An index of the array is in the point's block iff each coordinate is in the block's range on its axis. -/
theorem mem_blk (t : Fin cfg4.N) (i : S2048x1.Idx) :
    i ∈ ((cfg4.win 5).blk t).view.set ↔ ∀ a : Fin 2, win4_5.index t a * S2048x1.size a ≤ (i a).val ∧ (i a).val < win4_5.index t a * S2048x1.size a + S2048x1.size a := by
  show i ∈ ((View.whole main_v74).slice (win4_5.rect t)).set ↔ _
  rw [View.set_slice_whole, Rect.mem_set_unit]
  exact Iff.rfl

/-- The one block covers the array. -/
theorem cover (i : S2048x1.Idx) : ∃ t : Fin cfg4.N, (cfg4.win 5).flush t = true ∧ i ∈ ((cfg4.win 5).blk t).view.set := by
  have hi0 : (i 0).val < 2048 := (i 0).isLt
  have hi1 : (i 1).val < 1 := (i 1).isLt
  obtain ⟨e0, e1, e2, e3, e4, e5, e6, e7, e8, e9, e10, e11⟩ := idx_facts t4_0
  refine ⟨t4_0, flush4_5 t4_0, ?_⟩
  rw [mem_blk]
  intro a
  match a with
  | ⟨0, _⟩ => show win4_5.index t4_0 (0 : Fin 2) * 2048 ≤ (i 0).val ∧ (i 0).val < win4_5.index t4_0 (0 : Fin 2) * 2048 + 2048; omega
  | ⟨1, _⟩ => show win4_5.index t4_0 (1 : Fin 2) * 1 ≤ (i 1).val ∧ (i 1).val < win4_5.index t4_0 (1 : Fin 2) * 1 + 1; omega

/-- After the region the result array is the host's spelling of the five arrays as the region found them. -/
theorem final (c : Dev nD) : (dat4 V c).arrAt 5 cfg4.N
    = readout (V c main_v71) (V c main_arg7) (V c main_v72) (V c main_arg9) (V c main_v73) :=
  (dat4 V c).arrAt_eq_of_cover 5 _ (fun t _ => flushed_eq V c t) cover

end Cert.KernelIdeal.Readout

end
-- ==== Proof.Folds.lean ====
/-
  The kernel program's buffers at the segment boundaries, identified with the reference's stages.

  Between two consecutive segments of the kernel program the buffers hold a fold of the launch memory. This module walks
  the buffers the regions and the later host stretches read through that fold. A host stretch applies the same
  operations the reference applies, so a buffer it writes is the reference's stage of the same operands; a region
  leaves its result array at the whole-array function of its operand arrays that the region's own module
  establishes, which is again the reference's stage: a host matrix product for the two projections, the host's sum,
  product with the broadcast self-loop weights, bias and clamp for the two combinations, the host's spelling of the
  perceptron and the sigmoid for the readout. Two spellings differ on the way and denote the same array: the kernel
  program reshapes a vector to one column (or one row) where the reference broadcasts it along a new unit axis; and
  the kernel program computes the edge weights and the self-loop weights once where the reference computes them
  again for the second layer, from the same operands by the same operations.
  At the last boundary the result buffer holds the reference's result term of the argument arrays.
-/
import proofs.«164985_j79766132621709_1_alg».proof.Proof.Gen.KernelIdeal.Frame
import proofs.«164985_j79766132621709_1_alg».proof.Proof.Gen.ReferenceIdeal.Read
import proofs.«164985_j79766132621709_1_alg».proof.Proof.Proj1
import proofs.«164985_j79766132621709_1_alg».proof.Proof.Proj2
import proofs.«164985_j79766132621709_1_alg».proof.Proof.Comb1
import proofs.«164985_j79766132621709_1_alg».proof.Proof.Comb2
import proofs.«164985_j79766132621709_1_alg».proof.Proof.Readout
import Idealize.ShloMosaic.Lib.StableHlo.Run
import Idealize.ShloMosaic.Lib.ValueIdx
import Idealize.ShloMosaic.Lib.Pipeline.Value

set_option maxRecDepth 16384
set_option maxHeartbeats 4000000

noncomputable section

namespace Cert.KernelIdeal.Folds

open Cert.KernelIdeal Cert.KernelIdeal.Gen
open Idealize.ShloMosaic Idealize.ShloMosaic.TcCoe Idealize.SL.Sem Idealize.ShloMosaic.StableHlo Idealize.ShloMosaic.ValueIdx

/-! ## A vector reshaped to one column or one row is the vector broadcast along a new unit axis -/

theorem col_eq {α : Type} (y : S100000.Idx → α) (h : S100000.ShapeCasts S100000x1)
    (h' : S100000.BroadcastsInDim S100000x1 (![0] : Fin 1 → Fin S100000x1.rank)) :
    shapeCast S100000x1 y h = broadcastInDim S100000x1 ![0] h' y := by
  funext i
  obtain ⟨r, z, rfl⟩ : ∃ (r : Fin 100000) (z : Fin 1), i = ix2 r z := ⟨i 0, i 1, eq_ix2 i⟩
  rw [shapeCast_apply y h (ix2 r z) (ix1 r) (by
        rewrite [Shape.rowMajor_val_two, Shape.rowMajor_val_one]; show r.val = r.val * 1 + z.val; have := z.isLt; omega),
      broadcastInDim_apply _ h' y (ix2 r z) (ix1 r) (fun a => match a with
        | ⟨0, _⟩ => by show r.val = if (100000 : Nat) = 1 then 0 else r.val; rw [if_neg (by decide)])]

theorem row64_eq {α : Type} (y : S64.Idx → α) (h : S64.ShapeCasts S1x64)
    (h' : S64.BroadcastsInDim S1x64 (![1] : Fin 1 → Fin S1x64.rank)) :
    shapeCast S1x64 y h = broadcastInDim S1x64 ![1] h' y := by
  funext i
  obtain ⟨z, q, rfl⟩ : ∃ (z : Fin 1) (q : Fin 64), i = ix2 z q := ⟨i 0, i 1, eq_ix2 i⟩
  rw [shapeCast_apply y h (ix2 z q) (ix1 q) (by
        rewrite [Shape.rowMajor_val_two, Shape.rowMajor_val_one]; show q.val = z.val * 64 + q.val; have := z.isLt; omega),
      broadcastInDim_apply _ h' y (ix2 z q) (ix1 q) (fun a => match a with
        | ⟨0, _⟩ => by show q.val = if (64 : Nat) = 1 then 0 else q.val; rw [if_neg (by decide)])]

theorem row32_eq {α : Type} (y : S32.Idx → α) (h : S32.ShapeCasts S1x32)
    (h' : S32.BroadcastsInDim S1x32 (![1] : Fin 1 → Fin S1x32.rank)) :
    shapeCast S1x32 y h = broadcastInDim S1x32 ![1] h' y := by
  funext i
  obtain ⟨z, q, rfl⟩ : ∃ (z : Fin 1) (q : Fin 32), i = ix2 z q := ⟨i 0, i 1, eq_ix2 i⟩
  rw [shapeCast_apply y h (ix2 z q) (ix1 q) (by
        rewrite [Shape.rowMajor_val_two, Shape.rowMajor_val_one]; show q.val = z.val * 32 + q.val; have := z.isLt; omega),
      broadcastInDim_apply _ h' y (ix2 z q) (ix1 q) (fun a => match a with
        | ⟨0, _⟩ => by show q.val = if (32 : Nat) = 1 then 0 else q.val; rw [if_neg (by decide)])]

theorem one_eq {α : Type} (y : S1.Idx → α) (h : S1.ShapeCasts S1x1)
    (h' : S1.BroadcastsInDim S1x1 (![1] : Fin 1 → Fin S1x1.rank)) :
    shapeCast S1x1 y h = broadcastInDim S1x1 ![1] h' y := by
  funext i
  obtain ⟨z, q, rfl⟩ : ∃ (z : Fin 1) (q : Fin 1), i = ix2 z q := ⟨i 0, i 1, eq_ix2 i⟩
  rw [shapeCast_apply y h (ix2 z q) (ix1 q) (by
        rewrite [Shape.rowMajor_val_two, Shape.rowMajor_val_one]; show q.val = z.val * 1 + q.val; have := z.isLt; omega),
      broadcastInDim_apply _ h' y (ix2 z q) (ix1 0) (fun a => match a with
        | ⟨0, _⟩ => by show (0 : Nat) = if (1 : Nat) = 1 then 0 else q.val; rw [if_pos rfl])]
  exact congrArg y (funext fun a => match a with | ⟨0, _⟩ => Fin.ext (by show q.val = 0; have := q.isLt; omega))

/-! ## The argument arrays -/

variable (m : (ℓ : Loc nD τ sig) → Buf (Elt Ideal) ℓ) (ρ : Dev nD → PrngReg) (c : Dev nD)

abbrev x0 := m ((c.tc : Thread nD τ).loc main_arg0)
abbrev x1 := m ((c.tc : Thread nD τ).loc main_arg1)
abbrev x2 := m ((c.tc : Thread nD τ).loc main_arg2)
abbrev x3 := m ((c.tc : Thread nD τ).loc main_arg3)
abbrev x4 := m ((c.tc : Thread nD τ).loc main_arg4)
abbrev x5 := m ((c.tc : Thread nD τ).loc main_arg5)
abbrev x6 := m ((c.tc : Thread nD τ).loc main_arg6)
abbrev x7 := m ((c.tc : Thread nD τ).loc main_arg7)
abbrev x8 := m ((c.tc : Thread nD τ).loc main_arg8)
abbrev x9 := m ((c.tc : Thread nD τ).loc main_arg9)
abbrev x10 := m ((c.tc : Thread nD τ).loc main_arg10)

/-! ## An argument array is what it was at launch, at every boundary up to where it is last read -/

theorem W1_arg0 : W1 m ρ c (Proc.devRef .tc main_arg0) = x0 m c := by
  show StableHlo.after hostOps0 (W0 m ρ c) (Proc.devRef .tc main_arg0) = _
  after_results_simp <;> rfl
theorem W1_arg3 : W1 m ρ c (Proc.devRef .tc main_arg3) = x3 m c := by
  show StableHlo.after hostOps0 (W0 m ρ c) (Proc.devRef .tc main_arg3) = _
  after_results_simp <;> rfl
theorem W1_arg4 : W1 m ρ c (Proc.devRef .tc main_arg4) = x4 m c := by
  show StableHlo.after hostOps0 (W0 m ρ c) (Proc.devRef .tc main_arg4) = _
  after_results_simp <;> rfl
theorem W1_arg5 : W1 m ρ c (Proc.devRef .tc main_arg5) = x5 m c := by
  show StableHlo.after hostOps0 (W0 m ρ c) (Proc.devRef .tc main_arg5) = _
  after_results_simp <;> rfl
theorem W1_arg6 : W1 m ρ c (Proc.devRef .tc main_arg6) = x6 m c := by
  show StableHlo.after hostOps0 (W0 m ρ c) (Proc.devRef .tc main_arg6) = _
  after_results_simp <;> rfl
theorem W1_arg2 : W1 m ρ c (Proc.devRef .tc main_arg2) = x2 m c := by
  show StableHlo.after hostOps0 (W0 m ρ c) (Proc.devRef .tc main_arg2) = _
  after_results_simp <;> rfl
theorem W1_arg8 : W1 m ρ c (Proc.devRef .tc main_arg8) = x8 m c := by
  show StableHlo.after hostOps0 (W0 m ρ c) (Proc.devRef .tc main_arg8) = _
  after_results_simp <;> rfl
theorem W1_arg10 : W1 m ρ c (Proc.devRef .tc main_arg10) = x10 m c := by
  show StableHlo.after hostOps0 (W0 m ρ c) (Proc.devRef .tc main_arg10) = _
  after_results_simp <;> rfl
theorem W1_arg7 : W1 m ρ c (Proc.devRef .tc main_arg7) = x7 m c := by
  show StableHlo.after hostOps0 (W0 m ρ c) (Proc.devRef .tc main_arg7) = _
  after_results_simp <;> rfl
theorem W1_arg9 : W1 m ρ c (Proc.devRef .tc main_arg9) = x9 m c := by
  show StableHlo.after hostOps0 (W0 m ρ c) (Proc.devRef .tc main_arg9) = _
  after_results_simp <;> rfl
theorem W2_arg4 : W2 m ρ c (Proc.devRef .tc main_arg4) = x4 m c :=
  (W2_of_ne m ρ c main_arg4 (by decide)).trans (W1_arg4 m ρ c)
theorem W2_arg5 : W2 m ρ c (Proc.devRef .tc main_arg5) = x5 m c :=
  (W2_of_ne m ρ c main_arg5 (by decide)).trans (W1_arg5 m ρ c)
theorem W3_arg5 : W3 m ρ c (Proc.devRef .tc main_arg5) = x5 m c := by
  show StableHlo.after hostOps1 (W2 m ρ c) (Proc.devRef .tc main_arg5) = _
  after_results
  exact W2_arg5 m ρ c
theorem W4_arg5 : W4 m ρ c (Proc.devRef .tc main_arg5) = x5 m c :=
  (W4_of_ne m ρ c main_arg5 (by decide)).trans (W3_arg5 m ρ c)
theorem W2_arg6 : W2 m ρ c (Proc.devRef .tc main_arg6) = x6 m c :=
  (W2_of_ne m ρ c main_arg6 (by decide)).trans (W1_arg6 m ρ c)
theorem W3_arg6 : W3 m ρ c (Proc.devRef .tc main_arg6) = x6 m c := by
  show StableHlo.after hostOps1 (W2 m ρ c) (Proc.devRef .tc main_arg6) = _
  after_results
  exact W2_arg6 m ρ c
theorem W4_arg6 : W4 m ρ c (Proc.devRef .tc main_arg6) = x6 m c :=
  (W4_of_ne m ρ c main_arg6 (by decide)).trans (W3_arg6 m ρ c)
theorem W5_arg6 : W5 m ρ c (Proc.devRef .tc main_arg6) = x6 m c :=
  (W5_of_ne m ρ c main_arg6 (by decide)).trans (W4_arg6 m ρ c)
theorem W2_arg2 : W2 m ρ c (Proc.devRef .tc main_arg2) = x2 m c :=
  (W2_of_ne m ρ c main_arg2 (by decide)).trans (W1_arg2 m ρ c)
theorem W3_arg2 : W3 m ρ c (Proc.devRef .tc main_arg2) = x2 m c := by
  show StableHlo.after hostOps1 (W2 m ρ c) (Proc.devRef .tc main_arg2) = _
  after_results
  exact W2_arg2 m ρ c
theorem W4_arg2 : W4 m ρ c (Proc.devRef .tc main_arg2) = x2 m c :=
  (W4_of_ne m ρ c main_arg2 (by decide)).trans (W3_arg2 m ρ c)
theorem W5_arg2 : W5 m ρ c (Proc.devRef .tc main_arg2) = x2 m c :=
  (W5_of_ne m ρ c main_arg2 (by decide)).trans (W4_arg2 m ρ c)
theorem W6_arg2 : W6 m ρ c (Proc.devRef .tc main_arg2) = x2 m c := by
  show StableHlo.after hostOps3 (W5 m ρ c) (Proc.devRef .tc main_arg2) = _
  after_results
  exact W5_arg2 m ρ c
theorem W7_arg2 : W7 m ρ c (Proc.devRef .tc main_arg2) = x2 m c :=
  (W7_of_ne m ρ c main_arg2 (by decide)).trans (W6_arg2 m ρ c)
theorem W2_arg8 : W2 m ρ c (Proc.devRef .tc main_arg8) = x8 m c :=
  (W2_of_ne m ρ c main_arg8 (by decide)).trans (W1_arg8 m ρ c)
theorem W3_arg8 : W3 m ρ c (Proc.devRef .tc main_arg8) = x8 m c := by
  show StableHlo.after hostOps1 (W2 m ρ c) (Proc.devRef .tc main_arg8) = _
  after_results
  exact W2_arg8 m ρ c
theorem W4_arg8 : W4 m ρ c (Proc.devRef .tc main_arg8) = x8 m c :=
  (W4_of_ne m ρ c main_arg8 (by decide)).trans (W3_arg8 m ρ c)
theorem W5_arg8 : W5 m ρ c (Proc.devRef .tc main_arg8) = x8 m c :=
  (W5_of_ne m ρ c main_arg8 (by decide)).trans (W4_arg8 m ρ c)
theorem W6_arg8 : W6 m ρ c (Proc.devRef .tc main_arg8) = x8 m c := by
  show StableHlo.after hostOps3 (W5 m ρ c) (Proc.devRef .tc main_arg8) = _
  after_results
  exact W5_arg8 m ρ c
theorem W7_arg8 : W7 m ρ c (Proc.devRef .tc main_arg8) = x8 m c :=
  (W7_of_ne m ρ c main_arg8 (by decide)).trans (W6_arg8 m ρ c)
theorem W2_arg10 : W2 m ρ c (Proc.devRef .tc main_arg10) = x10 m c :=
  (W2_of_ne m ρ c main_arg10 (by decide)).trans (W1_arg10 m ρ c)
theorem W3_arg10 : W3 m ρ c (Proc.devRef .tc main_arg10) = x10 m c := by
  show StableHlo.after hostOps1 (W2 m ρ c) (Proc.devRef .tc main_arg10) = _
  after_results
  exact W2_arg10 m ρ c
theorem W4_arg10 : W4 m ρ c (Proc.devRef .tc main_arg10) = x10 m c :=
  (W4_of_ne m ρ c main_arg10 (by decide)).trans (W3_arg10 m ρ c)
theorem W5_arg10 : W5 m ρ c (Proc.devRef .tc main_arg10) = x10 m c :=
  (W5_of_ne m ρ c main_arg10 (by decide)).trans (W4_arg10 m ρ c)
theorem W6_arg10 : W6 m ρ c (Proc.devRef .tc main_arg10) = x10 m c := by
  show StableHlo.after hostOps3 (W5 m ρ c) (Proc.devRef .tc main_arg10) = _
  after_results
  exact W5_arg10 m ρ c
theorem W7_arg10 : W7 m ρ c (Proc.devRef .tc main_arg10) = x10 m c :=
  (W7_of_ne m ρ c main_arg10 (by decide)).trans (W6_arg10 m ρ c)
theorem W2_arg7 : W2 m ρ c (Proc.devRef .tc main_arg7) = x7 m c :=
  (W2_of_ne m ρ c main_arg7 (by decide)).trans (W1_arg7 m ρ c)
theorem W3_arg7 : W3 m ρ c (Proc.devRef .tc main_arg7) = x7 m c := by
  show StableHlo.after hostOps1 (W2 m ρ c) (Proc.devRef .tc main_arg7) = _
  after_results
  exact W2_arg7 m ρ c
theorem W4_arg7 : W4 m ρ c (Proc.devRef .tc main_arg7) = x7 m c :=
  (W4_of_ne m ρ c main_arg7 (by decide)).trans (W3_arg7 m ρ c)
theorem W5_arg7 : W5 m ρ c (Proc.devRef .tc main_arg7) = x7 m c :=
  (W5_of_ne m ρ c main_arg7 (by decide)).trans (W4_arg7 m ρ c)
theorem W6_arg7 : W6 m ρ c (Proc.devRef .tc main_arg7) = x7 m c := by
  show StableHlo.after hostOps3 (W5 m ρ c) (Proc.devRef .tc main_arg7) = _
  after_results
  exact W5_arg7 m ρ c
theorem W7_arg7 : W7 m ρ c (Proc.devRef .tc main_arg7) = x7 m c :=
  (W7_of_ne m ρ c main_arg7 (by decide)).trans (W6_arg7 m ρ c)
theorem W8_arg7 : W8 m ρ c (Proc.devRef .tc main_arg7) = x7 m c := by
  show StableHlo.after hostOps4 (W7 m ρ c) (Proc.devRef .tc main_arg7) = _
  after_results
  exact W7_arg7 m ρ c
theorem W2_arg9 : W2 m ρ c (Proc.devRef .tc main_arg9) = x9 m c :=
  (W2_of_ne m ρ c main_arg9 (by decide)).trans (W1_arg9 m ρ c)
theorem W3_arg9 : W3 m ρ c (Proc.devRef .tc main_arg9) = x9 m c := by
  show StableHlo.after hostOps1 (W2 m ρ c) (Proc.devRef .tc main_arg9) = _
  after_results
  exact W2_arg9 m ρ c
theorem W4_arg9 : W4 m ρ c (Proc.devRef .tc main_arg9) = x9 m c :=
  (W4_of_ne m ρ c main_arg9 (by decide)).trans (W3_arg9 m ρ c)
theorem W5_arg9 : W5 m ρ c (Proc.devRef .tc main_arg9) = x9 m c :=
  (W5_of_ne m ρ c main_arg9 (by decide)).trans (W4_arg9 m ρ c)
theorem W6_arg9 : W6 m ρ c (Proc.devRef .tc main_arg9) = x9 m c := by
  show StableHlo.after hostOps3 (W5 m ρ c) (Proc.devRef .tc main_arg9) = _
  after_results
  exact W5_arg9 m ρ c
theorem W7_arg9 : W7 m ρ c (Proc.devRef .tc main_arg9) = x9 m c :=
  (W7_of_ne m ρ c main_arg9 (by decide)).trans (W6_arg9 m ρ c)
theorem W8_arg9 : W8 m ρ c (Proc.devRef .tc main_arg9) = x9 m c := by
  show StableHlo.after hostOps4 (W7 m ρ c) (Proc.devRef .tc main_arg9) = _
  after_results
  exact W7_arg9 m ρ c

/-! ## Before the first region: the edges' endpoints, the edge weights, the self-loop weights -/

theorem W1_v1 : W1 m ρ c (Proc.devRef .tc main_v1) = Cert.ReferenceIdeal.Read.val_main_v1 (x1 m c) := by
  show StableHlo.after hostOps0 (W0 m ρ c) (Proc.devRef .tc main_v1) = _
  after_results_simp <;> rfl
theorem W1_v3 : W1 m ρ c (Proc.devRef .tc main_v3) = Cert.ReferenceIdeal.Read.val_main_v3 (x1 m c) := by
  show StableHlo.after hostOps0 (W0 m ρ c) (Proc.devRef .tc main_v3) = _
  after_results_simp <;> rfl
theorem W1_v25 : W1 m ρ c (Proc.devRef .tc main_v25) = Cert.ReferenceIdeal.Read.val_main_v26 (x1 m c) := by
  show StableHlo.after hostOps0 (W0 m ρ c) (Proc.devRef .tc main_v25) = _
  after_results_simp <;> rfl
/-- The self-loop weights: the kernel program reshapes the squared inverse root degrees to one column, the reference broadcasts
    them along a new unit axis. -/
theorem W1_v27 : W1 m ρ c (Proc.devRef .tc main_v27) = Cert.ReferenceIdeal.Read.val_main_v41 (x1 m c) := by
  show StableHlo.after hostOps0 (W0 m ρ c) (Proc.devRef .tc main_v27) = _
  after_results_simp
  exact col_eq _ _ _

theorem W2_v1 : W2 m ρ c (Proc.devRef .tc main_v1) = Cert.ReferenceIdeal.Read.val_main_v1 (x1 m c) :=
  (W2_of_ne m ρ c main_v1 (by decide)).trans (W1_v1 m ρ c)
theorem W3_v1 : W3 m ρ c (Proc.devRef .tc main_v1) = Cert.ReferenceIdeal.Read.val_main_v1 (x1 m c) := by
  show StableHlo.after hostOps1 (W2 m ρ c) (Proc.devRef .tc main_v1) = _
  after_results
  exact W2_v1 m ρ c
theorem W4_v1 : W4 m ρ c (Proc.devRef .tc main_v1) = Cert.ReferenceIdeal.Read.val_main_v1 (x1 m c) :=
  (W4_of_ne m ρ c main_v1 (by decide)).trans (W3_v1 m ρ c)
theorem W5_v1 : W5 m ρ c (Proc.devRef .tc main_v1) = Cert.ReferenceIdeal.Read.val_main_v1 (x1 m c) :=
  (W5_of_ne m ρ c main_v1 (by decide)).trans (W4_v1 m ρ c)
theorem W2_v3 : W2 m ρ c (Proc.devRef .tc main_v3) = Cert.ReferenceIdeal.Read.val_main_v3 (x1 m c) :=
  (W2_of_ne m ρ c main_v3 (by decide)).trans (W1_v3 m ρ c)
theorem W3_v3 : W3 m ρ c (Proc.devRef .tc main_v3) = Cert.ReferenceIdeal.Read.val_main_v3 (x1 m c) := by
  show StableHlo.after hostOps1 (W2 m ρ c) (Proc.devRef .tc main_v3) = _
  after_results
  exact W2_v3 m ρ c
theorem W4_v3 : W4 m ρ c (Proc.devRef .tc main_v3) = Cert.ReferenceIdeal.Read.val_main_v3 (x1 m c) :=
  (W4_of_ne m ρ c main_v3 (by decide)).trans (W3_v3 m ρ c)
theorem W5_v3 : W5 m ρ c (Proc.devRef .tc main_v3) = Cert.ReferenceIdeal.Read.val_main_v3 (x1 m c) :=
  (W5_of_ne m ρ c main_v3 (by decide)).trans (W4_v3 m ρ c)
theorem W2_v25 : W2 m ρ c (Proc.devRef .tc main_v25) = Cert.ReferenceIdeal.Read.val_main_v26 (x1 m c) :=
  (W2_of_ne m ρ c main_v25 (by decide)).trans (W1_v25 m ρ c)
theorem W3_v25 : W3 m ρ c (Proc.devRef .tc main_v25) = Cert.ReferenceIdeal.Read.val_main_v26 (x1 m c) := by
  show StableHlo.after hostOps1 (W2 m ρ c) (Proc.devRef .tc main_v25) = _
  after_results
  exact W2_v25 m ρ c
theorem W4_v25 : W4 m ρ c (Proc.devRef .tc main_v25) = Cert.ReferenceIdeal.Read.val_main_v26 (x1 m c) :=
  (W4_of_ne m ρ c main_v25 (by decide)).trans (W3_v25 m ρ c)
theorem W5_v25 : W5 m ρ c (Proc.devRef .tc main_v25) = Cert.ReferenceIdeal.Read.val_main_v26 (x1 m c) :=
  (W5_of_ne m ρ c main_v25 (by decide)).trans (W4_v25 m ρ c)

/-! ## The first layer -/

/-- After the first region its result is the host's product of the features and the first weights. -/
theorem W2_v28 : W2 m ρ c (Proc.devRef .tc main_v28) = Cert.ReferenceIdeal.Read.val_main_v11 (x0 m c) (x3 m c) :=
  (W2_arr m ρ c 2).trans ((Proj1.final (V1 m ρ) c).trans (congrArg₂ Proj1.prod (W1_arg0 m ρ c) (W1_arg3 m ρ c)))

theorem W2_v27 : W2 m ρ c (Proc.devRef .tc main_v27) = Cert.ReferenceIdeal.Read.val_main_v41 (x1 m c) :=
  (W2_of_ne m ρ c main_v27 (by decide)).trans (W1_v27 m ρ c)

theorem W3_v28 : W3 m ρ c (Proc.devRef .tc main_v28) = Cert.ReferenceIdeal.Read.val_main_v11 (x0 m c) (x3 m c) := by
  show StableHlo.after hostOps1 (W2 m ρ c) (Proc.devRef .tc main_v28) = _
  after_results
  exact W2_v28 m ρ c
theorem W3_v27 : W3 m ρ c (Proc.devRef .tc main_v27) = Cert.ReferenceIdeal.Read.val_main_v41 (x1 m c) := by
  show StableHlo.after hostOps1 (W2 m ρ c) (Proc.devRef .tc main_v27) = _
  after_results
  exact W2_v27 m ρ c

/-- The first layer's aggregate: the same gather, scaling and scatter-add as the reference's, of the same operands. -/
theorem W3_v41 : W3 m ρ c (Proc.devRef .tc main_v41) = Cert.ReferenceIdeal.Read.val_main_v39 (x0 m c) (x1 m c) (x3 m c) := by
  show StableHlo.after hostOps1 (W2 m ρ c) (Proc.devRef .tc main_v41) = _
  after_results
  rw [W2_v28, W2_v1, W2_v3, W2_v25]
  rfl
/-- The first bias as one row. -/
theorem W3_v42 : W3 m ρ c (Proc.devRef .tc main_v42) = Cert.ReferenceIdeal.Read.val_main_v45 (x4 m c) := by
  show StableHlo.after hostOps1 (W2 m ρ c) (Proc.devRef .tc main_v42) = _
  after_results
  rw [W2_arg4]
  exact row64_eq _ _ _

/-- After the second region: the first layer's output. -/
theorem W4_v43 : W4 m ρ c (Proc.devRef .tc main_v43) = Cert.ReferenceIdeal.Read.val_main_v48 (x0 m c) (x1 m c) (x3 m c) (x4 m c) := by
  refine (W4_arr m ρ c 4).trans ((Comb1.final (V3 m ρ) c).trans ?_)
  show Comb1.comb (W3 m ρ c (Proc.devRef .tc main_v41)) (W3 m ρ c (Proc.devRef .tc main_v28)) (W3 m ρ c (Proc.devRef .tc main_v27)) (W3 m ρ c (Proc.devRef .tc main_v42)) = _
  rw [W3_v41, W3_v28, W3_v27, W3_v42]
  rfl

/-- The self-loop weights are an operand array of the second region, which leaves it as it found it. -/
theorem W4_v27 : W4 m ρ c (Proc.devRef .tc main_v27) = Cert.ReferenceIdeal.Read.val_main_v41 (x1 m c) :=
  ((W4_arr m ρ c 2).trans (((dat1 (V3 m ρ) c).arrAt_in 2 rfl _).trans (A_eq1 (V3 m ρ) c 2))).trans (W3_v27 m ρ c)
theorem W5_v27 : W5 m ρ c (Proc.devRef .tc main_v27) = Cert.ReferenceIdeal.Read.val_main_v41 (x1 m c) :=
  (W5_of_ne m ρ c main_v27 (by decide)).trans (W4_v27 m ρ c)

/-! ## The second layer -/

theorem W5_v44 : W5 m ρ c (Proc.devRef .tc main_v44) = Cert.ReferenceIdeal.Read.val_main_v49 (x0 m c) (x1 m c) (x3 m c) (x4 m c) (x5 m c) :=
  (W5_arr m ρ c 2).trans ((Proj2.final (V4 m ρ) c).trans (congrArg₂ Proj2.prod (W4_v43 m ρ c) (W4_arg5 m ρ c)))

theorem W6_v44 : W6 m ρ c (Proc.devRef .tc main_v44) = Cert.ReferenceIdeal.Read.val_main_v49 (x0 m c) (x1 m c) (x3 m c) (x4 m c) (x5 m c) := by
  show StableHlo.after hostOps3 (W5 m ρ c) (Proc.devRef .tc main_v44) = _
  after_results
  exact W5_v44 m ρ c
theorem W6_v27 : W6 m ρ c (Proc.devRef .tc main_v27) = Cert.ReferenceIdeal.Read.val_main_v41 (x1 m c) := by
  show StableHlo.after hostOps3 (W5 m ρ c) (Proc.devRef .tc main_v27) = _
  after_results
  exact W5_v27 m ρ c

/-- The second layer's aggregate. The reference computes the edge weights again for this layer, from the same operands by
    the same operations. -/
theorem W6_v57 : W6 m ρ c (Proc.devRef .tc main_v57) = Cert.ReferenceIdeal.Read.val_main_v77 (x0 m c) (x1 m c) (x3 m c) (x4 m c) (x5 m c) := by
  show StableHlo.after hostOps3 (W5 m ρ c) (Proc.devRef .tc main_v57) = _
  after_results
  rw [W5_v44, W5_v1, W5_v3, W5_v25]
  rfl
theorem W6_v58 : W6 m ρ c (Proc.devRef .tc main_v58) = Cert.ReferenceIdeal.Read.val_main_v83 (x6 m c) := by
  show StableHlo.after hostOps3 (W5 m ρ c) (Proc.devRef .tc main_v58) = _
  after_results
  rw [W5_arg6]
  exact row64_eq _ _ _

/-- After the fourth region: the second layer's output. The reference computes the self-loop weights again for this layer. -/
theorem W7_v59 : W7 m ρ c (Proc.devRef .tc main_v59) = Cert.ReferenceIdeal.Read.val_main_v86 (x0 m c) (x1 m c) (x3 m c) (x4 m c) (x5 m c) (x6 m c) := by
  refine (W7_arr m ρ c 4).trans ((Comb2.final (V6 m ρ) c).trans ?_)
  show Comb2.comb (W6 m ρ c (Proc.devRef .tc main_v57)) (W6 m ρ c (Proc.devRef .tc main_v44)) (W6 m ρ c (Proc.devRef .tc main_v27)) (W6 m ρ c (Proc.devRef .tc main_v58)) = _
  rw [W6_v57, W6_v44, W6_v27, W6_v58]
  rfl

/-! ## Pooling and the readout -/

/-- The mean of the node states over each graph: the same scatter-adds, clamp of the counts and quotient as the reference's. -/
theorem W8_v71 : W8 m ρ c (Proc.devRef .tc main_v71) = Cert.ReferenceIdeal.Read.val_main_v98 (x0 m c) (x1 m c) (x2 m c) (x3 m c) (x4 m c) (x5 m c) (x6 m c) := by
  show StableHlo.after hostOps4 (W7 m ρ c) (Proc.devRef .tc main_v71) = _
  after_results
  rw [W7_v59, W7_arg2]
  rfl
theorem W8_v72 : W8 m ρ c (Proc.devRef .tc main_v72) = Cert.ReferenceIdeal.Read.val_main_v100 (x8 m c) := by
  show StableHlo.after hostOps4 (W7 m ρ c) (Proc.devRef .tc main_v72) = _
  after_results
  rw [W7_arg8]
  exact row32_eq _ _ _
theorem W8_v73 : W8 m ρ c (Proc.devRef .tc main_v73) = Cert.ReferenceIdeal.Read.val_main_v105 (x10 m c) := by
  show StableHlo.after hostOps4 (W7 m ρ c) (Proc.devRef .tc main_v73) = _
  after_results
  rw [W7_arg10]
  exact one_eq _ _ _

/-- After the last region: the sigmoid of the perceptron, in the host's spelling. -/
theorem W9_v74 : W9 m ρ c (Proc.devRef .tc main_v74) = Cert.ReferenceIdeal.Read.val_main_v113 (x0 m c) (x1 m c) (x2 m c) (x3 m c) (x4 m c) (x5 m c) (x6 m c) (x7 m c) (x8 m c) (x9 m c) (x10 m c) := by
  refine (W9_arr m ρ c 5).trans ((Readout.final (V8 m ρ) c).trans ?_)
  show Readout.readout (W8 m ρ c (Proc.devRef .tc main_v71)) (W8 m ρ c (Proc.devRef .tc main_arg7)) (W8 m ρ c (Proc.devRef .tc main_v72)) (W8 m ρ c (Proc.devRef .tc main_arg9)) (W8 m ρ c (Proc.devRef .tc main_v73)) = _
  rw [W8_v71, W8_arg7, W8_v72, W8_arg9, W8_v73]
  rfl

/-- THE RESULT: at the last boundary the result buffer holds the reference's result stage of the argument arrays. -/
theorem W10_v75 : W10 m ρ c (Proc.devRef .tc main_v75) = Cert.ReferenceIdeal.Read.val_main_v114 (x0 m c) (x1 m c) (x2 m c) (x3 m c) (x4 m c) (x5 m c) (x6 m c) (x7 m c) (x8 m c) (x9 m c) (x10 m c) := by
  show StableHlo.after hostOps5 (W9 m ρ c) (Proc.devRef .tc main_v75) = _
  after_results
  rw [W9_v74]
  rfl

end Cert.KernelIdeal.Folds

end
-- ==== Proof.lean ====
/-
  A two-layer graph convolution with mean pooling and a perceptron readout, as five kernels among host operations,
  equals its all-host reference over the extended reals.

  Both programs compute, from node features `x`, an edge list, a graph assignment and the weights: the inverse square
  roots `d` of the in-degrees plus one; per layer `h = X·W`, the sum over the edges into each node of `h[row]·d[row]·d[col]`,
  plus `h·d²`, plus the bias, clamped at zero; the mean of the node states over each graph; and
  `sigmoid (max (g·fcW1 + fcb1, 0)·fcW2 + fcb2)`. The gathers, scatter-adds and the pooling are host operations in both
  programs, the same operations of the same operands. The kernel program moves the two projections, the two
  combinations and the readout into kernels that work block by block: a product into a zero accumulator is the host's
  matrix product entry by entry, the blocks' rows tile the arrays, a rounding to bf16 is the identity at the ideal
  values, and the one sigmoid operation is `1 / (1 + exp (−x))` on every extended real, which is how the host spells it.
  No step uses a law that fails at an infinity, so the precondition is not opened.

  `RunAll` states the kernel program's run with every buffer named at the end; `Proj1`, `Comb1`, `Proj2`, `Comb2`,
  `Readout` give each region's result array as one whole-array function of its operand arrays; `Folds` walks the
  buffers through the segment boundaries to the reference's result term.
-/
import proofs.«164985_j79766132621709_1_alg».proof.Defs
import proofs.«164985_j79766132621709_1_alg».proof.Proof.Gen.Kernel
import proofs.«164985_j79766132621709_1_alg».proof.Proof.Gen.Kernel.Skeleton
import proofs.«164985_j79766132621709_1_alg».proof.Proof.Gen.Kernel.Launch
import proofs.«164985_j79766132621709_1_alg».proof.Proof.Gen.Kernel.Points
import proofs.«164985_j79766132621709_1_alg».proof.Proof.Gen.Kernel.Frame
import proofs.«164985_j79766132621709_1_alg».proof.Proof.Gen.KernelIdeal
import proofs.«164985_j79766132621709_1_alg».proof.Proof.Gen.KernelIdeal.Skeleton
import proofs.«164985_j79766132621709_1_alg».proof.Proof.Gen.KernelIdeal.Launch
import proofs.«164985_j79766132621709_1_alg».proof.Proof.Gen.KernelIdeal.Points
import proofs.«164985_j79766132621709_1_alg».proof.Proof.Gen.KernelIdeal.Frame
import proofs.«164985_j79766132621709_1_alg».proof.Proof.Gen.ReferenceIdeal
import proofs.«164985_j79766132621709_1_alg».proof.Proof.Gen.ReferenceIdeal.Run
import proofs.«164985_j79766132621709_1_alg».proof.Proof.Gen.ReferenceIdeal.Read
import proofs.«164985_j79766132621709_1_alg».proof.Proof.Gen.Pre_finite_inputs
import proofs.«164985_j79766132621709_1_alg».proof.Proof.RunAll
import proofs.«164985_j79766132621709_1_alg».proof.Proof.Folds
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments the kernel program ends with its result buffer at the last fold's contents, which
    is the reference's result stage of the arguments; the reference ends with its result at the same stage. -/
theorem algebraic : Cert.algebraic_KernelIdeal_ReferenceIdeal := by
  intro m ρ m' ρ' _ hagree
  refine ⟨fun c => Cert.KernelIdeal.Gen.W10 m ρ c (Proc.devRef .tc Cert.KernelIdeal.main_v75), Cert.KernelIdeal.Result.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v114_eq, h0, h1, h2, h3, h4, h5, h6, h7, h8, h9, h10]
  exact (Cert.KernelIdeal.Folds.W10_v75 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
